-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S16x16 : Shape := ⟨2, ![16, 16]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel

variable [Facts]

def fn {F : FTy → Type} [FloatOps F] (main_arg0 : FVec F S16x2048x2048 .f32) (main_arg1 : IVec S16x16 32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  main_v3
-- ==== Kernel.lean ====
abbrev S16x2048x2048 : Shape := ⟨3, ![16, 2048, 2048]⟩
abbrev S16x16 : Shape := ⟨2, ![16, 16]⟩
abbrev S16x1 : Shape := ⟨2, ![16, 1]⟩
abbrev S_ : Shape := ⟨0, ![]⟩
abbrev S16x15 : Shape := ⟨2, ![16, 15]⟩
abbrev S2048 : Shape := ⟨1, ![2048]⟩
abbrev S1x1x2048 : Shape := ⟨3, ![1, 1, 2048]⟩
abbrev S16x16x1 : Shape := ⟨3, ![16, 16, 1]⟩
abbrev S16x16x2048 : Shape := ⟨3, ![16, 16, 2048]⟩
abbrev S16x8x128 : Shape := ⟨3, ![16, 8, 128]⟩
abbrev S1x512x512 : Shape := ⟨3, ![1, 512, 512]⟩
abbrev S1x16x512 : Shape := ⟨3, ![1, 16, 512]⟩
abbrev S1x8x128 : Shape := ⟨3, ![1, 8, 128]⟩
abbrev S8x128 : Shape := ⟨2, ![8, 128]⟩
abbrev S16x512 : Shape := ⟨2, ![16, 512]⟩
abbrev S512x16 : Shape := ⟨2, ![512, 16]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 26
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S16x16, .i32⟩
  | .hbm, ⟨2, _⟩ => ⟨S16x1, .i32⟩
  | .hbm, ⟨3, _⟩ => ⟨S_, .i32⟩
  | .hbm, ⟨4, _⟩ => ⟨S16x1, .i32⟩
  | .hbm, ⟨5, _⟩ => ⟨S16x15, .i32⟩
  | .hbm, ⟨6, _⟩ => ⟨S16x16, .i32⟩
  | .hbm, ⟨7, _⟩ => ⟨S16x16, .i32⟩
  | .hbm, ⟨8, _⟩ => ⟨S2048, .i32⟩
  | .hbm, ⟨9, _⟩ => ⟨S1x1x2048, .i32⟩
  | .hbm, ⟨10, _⟩ => ⟨S16x16x1, .i32⟩
  | .hbm, ⟨11, _⟩ => ⟨S16x16x2048, .i32⟩
  | .hbm, ⟨12, _⟩ => ⟨S16x16x2048, .i32⟩
  | .hbm, ⟨13, _⟩ => ⟨S16x16x2048, .i1⟩
  | .hbm, ⟨14, _⟩ => ⟨S1x1x2048, .i32⟩
  | .hbm, ⟨15, _⟩ => ⟨S16x16x1, .i32⟩
  | .hbm, ⟨16, _⟩ => ⟨S16x16x2048, .i32⟩
  | .hbm, ⟨17, _⟩ => ⟨S16x16x2048, .i32⟩
  | .hbm, ⟨18, _⟩ => ⟨S16x16x2048, .i1⟩
  | .hbm, ⟨19, _⟩ => ⟨S16x16x2048, .i1⟩
  | .hbm, ⟨20, _⟩ => ⟨S16x16x2048, .f32⟩
  | .hbm, ⟨21, _⟩ => ⟨S16x8x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x512x512, .f32⟩
  | .local _ .vmem, ⟨1, _⟩ => ⟨S1x512x512, .f32⟩
  | .local _ .vmem, ⟨2, _⟩ => ⟨S1x16x512, .f32⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S1x8x128, .f32⟩
  | .local _ .vmem, ⟨7, _⟩ => ⟨S1x8x128, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  slices_S16x16_S16x1_0_0 : S16x16.Slices ![0, 0] S16x1
  bcast_S_S16x1 : S_.BroadcastsInDim S16x1 (![] : Fin 0 → Fin S16x1.rank)
  slices_S16x16_S16x15_0_0 : S16x16.Slices ![0, 0] S16x15
  concatenates_S16x1_S16x15_S16x16_d1 : Shape.Concatenates [S16x1, S16x15] S16x16 1
  bcast_S2048_S1x1x2048_2 : S2048.BroadcastsInDim S1x1x2048 (![2] : Fin 1 → Fin S1x1x2048.rank)
  bcast_S16x16_S16x16x1_0_1 : S16x16.BroadcastsInDim S16x16x1 (![0, 1] : Fin 2 → Fin S16x16x1.rank)
  bcast_S1x1x2048_S16x16x2048_0_1_2 : S1x1x2048.BroadcastsInDim S16x16x2048 (![0, 1, 2] : Fin 3 → Fin S16x16x2048.rank)
  bcast_S16x16x1_S16x16x2048_0_1_2 : S16x16x1.BroadcastsInDim S16x16x2048 (![0, 1, 2] : Fin 3 → Fin S16x16x2048.rank)
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  bitsLt_bf16_f32 : FTy.bits .bf16 < FTy.bits .f32
  transposes_S16x512_p1_0_S512x16 : S16x512.Transposes [1, 0] S512x16
  natLt_1_32 : 1 < 32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  reducesTo_S16x8x128_S_d0_1_2 : S16x8x128.ReducesTo [0, 1, 2] S_
  h_S_ : 0 < S_.numel
  dot_S512x16_S16x512_S512x512_1_0_0_1_n_n_wf : DotDims.WF S512x16 S16x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x2048x2048.size a
  hwx0_0 : ∀ i : grid0.Coords, EltTy.bits .f32 = 32 ∨ (Rect.block (s := S16x2048x2048) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x512.size a ≤ S16x16x2048.size a
  hwx0_1 : ∀ i : grid0.Coords, EltTy.bits .f32 = 32 ∨ (Rect.block (s := S16x16x2048) S1x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512.size a ≤ S16x16x2048.size a
  hwx0_2 : ∀ i : grid0.Coords, EltTy.bits .f32 = 32 ∨ (Rect.block (s := S16x16x2048) S1x16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S16x8x128.size a
  hwx0_3 : ∀ i : grid0.Coords, EltTy.bits .f32 = 32 ∨ (Rect.block (s := S16x8x128) S1x8x128.size (cc0_transform_3 i) (hinb0_3 i)).WholeWords (EltTy.packing .f32)

variable [Facts₀]

def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x2048 : Shape := ⟨3, ![16, 2048, 2048]⟩
abbrev S16x16 : Shape := ⟨2, ![16, 16]⟩
abbrev S16x1 : Shape := ⟨2, ![16, 1]⟩
abbrev S_ : Shape := ⟨0, ![]⟩
abbrev S16x15 : Shape := ⟨2, ![16, 15]⟩
abbrev S2048 : Shape := ⟨1, ![2048]⟩
abbrev S1x1x2048 : Shape := ⟨3, ![1, 1, 2048]⟩
abbrev S16x16x1 : Shape := ⟨3, ![16, 16, 1]⟩
abbrev S16x16x2048 : Shape := ⟨3, ![16, 16, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x16, .i32⟩
  | .hbm, ⟨2, _⟩ => ⟨S16x1, .i32⟩
  | .hbm, ⟨3, _⟩ => ⟨S_, .i32⟩
  | .hbm, ⟨4, _⟩ => ⟨S16x1, .i32⟩
  | .hbm, ⟨5, _⟩ => ⟨S16x15, .i32⟩
  | .hbm, ⟨6, _⟩ => ⟨S16x16, .i32⟩
  | .hbm, ⟨7, _⟩ => ⟨S16x16, .i32⟩
  | .hbm, ⟨8, _⟩ => ⟨S2048, .i32⟩
  | .hbm, ⟨9, _⟩ => ⟨S1x1x2048, .i32⟩
  | .hbm, ⟨10, _⟩ => ⟨S16x16x1, .i32⟩
  | .hbm, ⟨11, _⟩ => ⟨S16x16x2048, .i32⟩
  | .hbm, ⟨12, _⟩ => ⟨S16x16x2048, .i32⟩
  | .hbm, ⟨13, _⟩ => ⟨S16x16x2048, .i1⟩
  | .hbm, ⟨14, _⟩ => ⟨S1x1x2048, .i32⟩
  | .hbm, ⟨15, _⟩ => ⟨S16x16x1, .i32⟩
  | .hbm, ⟨16, _⟩ => ⟨S16x16x2048, .i32⟩
  | .hbm, ⟨17, _⟩ => ⟨S16x16x2048, .i32⟩
  | .hbm, ⟨18, _⟩ => ⟨S16x16x2048, .i1⟩
  | .hbm, ⟨19, _⟩ => ⟨S16x16x2048, .i1⟩
  | .hbm, ⟨20, _⟩ => ⟨S16x16x2048, .f32⟩
  | .hbm, ⟨21, _⟩ => ⟨S16x2048x2048, .f32⟩
  | .hbm, ⟨22, _⟩ => ⟨S_, .f32⟩
  | .hbm, ⟨23, _⟩ => ⟨S16x2048x2048, .f32⟩
  | .hbm, ⟨24, _⟩ => ⟨S16x2048x2048, .i1⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩

abbrev nD : Nat := 1
abbrev τ : Topo := Topo.v7x

variable {F : FTy → Type} [FloatOps F]

class Facts₀ : Prop where
  slices_S16x16_S16x1_0_0 : S16x16.Slices ![0, 0] S16x1
  bcast_S_S16x1 : S_.BroadcastsInDim S16x1 (![] : Fin 0 → Fin S16x1.rank)
  slices_S16x16_S16x15_0_0 : S16x16.Slices ![0, 0] S16x15
  concatenates_S16x1_S16x15_S16x16_d1 : Shape.Concatenates [S16x1, S16x15] S16x16 1
  bcast_S2048_S1x1x2048_2 : S2048.BroadcastsInDim S1x1x2048 (![2] : Fin 1 → Fin S1x1x2048.rank)
  bcast_S16x16_S16x16x1_0_1 : S16x16.BroadcastsInDim S16x16x1 (![0, 1] : Fin 2 → Fin S16x16x1.rank)
  bcast_S1x1x2048_S16x16x2048_0_1_2 : S1x1x2048.BroadcastsInDim S16x16x2048 (![0, 1, 2] : Fin 3 → Fin S16x16x2048.rank)
  bcast_S16x16x1_S16x16x2048_0_1_2 : S16x16x1.BroadcastsInDim S16x16x2048 (![0, 1, 2] : Fin 3 → Fin S16x16x2048.rank)
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  dot_S16x16x2048_S16x16x2048_S16x2048x2048_1_1_2_2_0_0_wf : DotDims.WF S16x16x2048 S16x16x2048 S16x2048x2048 [1] [1] [2] [2] [0] [0]

variable [Facts₀]

def dot_S16x16x2048_S16x16x2048_S16x2048x2048_1_1_2_2_0_0 : DotDims S16x16x2048 S16x16x2048 S16x2048x2048 where
  lhsContracting := [1]
  rhsContracting := [1]
  lhsNonContracting := [2]
  rhsNonContracting := [2]
  lhsBatch := [0]
  rhsBatch := [0]
  wf := dot_S16x16x2048_S16x16x2048_S16x2048x2048_1_1_2_2_0_0_wf

class Facts : Prop extends Facts₀ where

variable [Facts]
-- ==== Proof.KDefs.lean ====
/-
  What the kernel region finds when it is entered. Before the region the program builds, from the cluster sizes,
  the membership array (1 where a position lies in a cluster, else 0) by nineteen whole-array operations; the region
  then reads the scores through one window and the membership array through two, and writes its partial sums
  through a fourth. `V` names every buffer's contents at that moment, and `iblk` a window's block of its array at
  a grid point.
-/
import proofs.«167607_j446676599061_2_alg».proof.Proof.Gen.KernelIdeal.Launch
import proofs.«167607_j446676599061_2_alg».proof.Proof.Gen.KernelIdeal.Skeleton
import proofs.«167607_j446676599061_2_alg».proof.Proof.Gen.KernelIdeal.Points
import Idealize.ShloMosaic.Lib.Pipeline.FrameBody
import Idealize.ShloMosaic.Lib.Pipeline.FrameSuffix

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- Core `c`'s buffers when the region is entered: the launch contents carried through the nineteen operations
    that precede it. -/
abbrev V0 (c : Dev nD) : Valuation τ sig (Elt F) :=
  StableHlo.after (List.flatten [hostOps0 (F := F)]) (fun b => m (c, b))

/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KRuns.lean ====
/-
  What the two runs of the kernel body are stated over. The body resets its accumulator exactly when the second
  and third grid coordinates are both zero; over the grid of 16 · 4 · 4 points, numbered t = 16·b + 4·i + j, that
  is when t is a multiple of 16. The four windows' current staging buffers at a point are named here as the
  pipeline passes them to the body, and one staging buffer of the output window serves as the view through which
  the accumulator's contents are stated.
-/
import proofs.«167607_j446676599061_2_alg».proof.Proof.KDefs
import Idealize.ShloMosaic.Lib.Ring
import Idealize.ShloMosaic.Lib.Tactic
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's conditional, from the grid coordinates: the second and third are both zero. -/
abbrev cond (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- It holds exactly at the first point of each batch: the multiples of 16. -/
theorem hcond : ∀ t : Fin cfg0.N, cond (grid0.coords t) ↔ t.val % 16 = 0 :=
  (by decide +kernel : ∀ t : Fin grid0.N, cond (grid0.coords t) ↔ t.val % 16 = 0)

/-- One staging buffer of the output window, through which the accumulator's contents are stated. -/
abbrev VO3 : View sig .tc .vmem S1x8x128 .f32 := (Memref.whole cc0_stg3_0 : Memref sig .tc .vmem S1x8x128 .f32).view

/-- Each window's current staging buffer at point `t`, as the pipeline passes it, and that it is a whole buffer. -/
abbrev ms0 (t : Fin cfg0.N) : Memref sig .tc .vmem S1x512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x16x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x128 .f32 := win0_3.stage (cfg0.slots t 3)
abbrev hs3 (t : Fin cfg0.N) : (ms3 t).IsWhole := hstage0_3 ((cfg0.slots t 3).cast nbuf0_3)

end Cert.KernelIdeal.Hand

end
-- ==== Proof.KRunA.lean ====
/-
  The whole kernel body at a point where it resets its accumulator (the second and third grid coordinates zero).
  On whole staging buffers, the three inputs' at given contents and the output's at anything, the body runs to its
  end leaving the inputs as they were and the output's buffer covered by two stores: first the zero block, then
  the zero block plus this point's partial sum. The list of pieces the output ends with is the witness the run
  finds; nothing the body computes is evaluated.
-/
import proofs.«167607_j446676599061_2_alg».proof.Proof.KRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case A: the pieces the output's buffer ends with (last store first), with the proof that the body runs to a
    continuation holding the inputs unchanged and the output's buffer with those pieces written. -/
noncomputable def kernelRunA (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : cond i)
    (x0 : Vec F S1x512x512 .f32) (x1 : Vec F S1x16x512 .f32) (x2 : Vec F S1x16x512 .f32) :
    { L : List (View.Piece (Elt F) S1x8x128 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ (∃ d, owns (c : Thread nD τ) arg6 fullShare d)
            ∗ (iprop(owns (c : Thread nD τ) arg3 fullShare x0 ∗ owns (c : Thread nD τ) arg4 fullShare x1
                ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__mse_kernel i arg3 harg3 arg4 harg4 arg5 harg5 arg6 harg6) K } := by
  refine ⟨?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Hand

end
-- ==== Proof.KRunB.lean ====
/-
  The whole kernel body at a point where it does not reset its accumulator. On whole staging buffers, the three
  inputs' at given contents and the output's at what it held on entry, the body runs to its end leaving the inputs
  as they were and the output's buffer covered by one store: what it held on entry plus this point's partial sum.
  The list of pieces the output ends with is the witness the run finds; nothing the body computes is evaluated.
-/
import proofs.«167607_j446676599061_2_alg».proof.Proof.KRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case B: the pieces the output's buffer ends with, with the proof that the body runs to a continuation holding
    the inputs unchanged and the output's buffer with those pieces written. -/
noncomputable def kernelRunB (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : ¬cond i)
    (x0 : Vec F S1x512x512 .f32) (x1 : Vec F S1x16x512 .f32) (x2 : Vec F S1x16x512 .f32) (xo : Vec F S1x8x128 .f32) :
    { L : List (View.Piece (Elt F) S1x8x128 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare xo
            ∗ (iprop(owns (c : Thread nD τ) arg3 fullShare x0 ∗ owns (c : Thread nD τ) arg4 fullShare x1
                ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__mse_kernel i arg3 harg3 arg4 harg4 arg5 harg5 arg6 harg6) K } := by
  refine ⟨?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2
    obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Hand

end
-- ==== Proof.KData.lean ====
/-
  What the output window's staging buffer holds after the body at each grid point, and the pipeline's proof data.
  In either case the body's stores tile the whole 1×8×128 block, so what the buffer ends with does not depend on
  what it held outside the stores: it is the stores read back over anything. Point by point the buffer holds, at a
  multiple of 16, the resetting case's contents, and at any other point the accumulating case's contents over
  what the point before left (the buffer is written back only after the points ≡ 15 mod 16, each followed by a
  resetting point). The three input windows' buffers hold their blocks of the arrays at every point, the window
  fetched there or not: an input that is not fetched at a point has not moved.
-/
import proofs.«167607_j446676599061_2_alg».proof.Proof.KRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Case A's pieces tile the output's block, so they cover it. -/
theorem coverA (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : cond i)
    (x0 : Vec F S1x512x512 .f32) (x1 : Vec F S1x16x512 .f32) (x2 : Vec F S1x16x512 .f32) (y : S1x8x128.Idx) :
    ∃ pc ∈ (kernelRunA c i arg3 harg3 arg4 harg4 arg5 harg5 arg6 harg6 hc x0 x1 x2).1, y ∈ pc.1.set :=
  View.cover_of_tiledL (kernelRunA c i arg3 harg3 arg4 harg4 arg5 harg5 arg6 harg6 hc x0 x1 x2).1 S1x8x128.size (by sl_kernel_rfl) y

/-- What case A leaves in the output's staging buffer: its pieces read back over anything. -/
def outA (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : cond i)
    (x0 : Vec F S1x512x512 .f32) (x1 : Vec F S1x16x512 .f32) (x2 : Vec F S1x16x512 .f32) : Vec F S1x8x128 .f32 :=
  VO3.read (Elt F) (VO3.writes (Elt F) VO3.junk (kernelRunA c i arg3 harg3 arg4 harg4 arg5 harg5 arg6 harg6 hc x0 x1 x2).1)

/-- Case B's pieces tile the output's block, so they cover it. -/
theorem coverB (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : ¬cond i)
    (x0 : Vec F S1x512x512 .f32) (x1 : Vec F S1x16x512 .f32) (x2 : Vec F S1x16x512 .f32) (xo : Vec F S1x8x128 .f32) (y : S1x8x128.Idx) :
    ∃ pc ∈ (kernelRunB c i arg3 harg3 arg4 harg4 arg5 harg5 arg6 harg6 hc x0 x1 x2 xo).1, y ∈ pc.1.set :=
  View.cover_of_tiledL (kernelRunB c i arg3 harg3 arg4 harg4 arg5 harg5 arg6 harg6 hc x0 x1 x2 xo).1 S1x8x128.size (by sl_kernel_rfl) y

/-- What case B leaves in the output's staging buffer: its pieces read back over anything. -/
def outB (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : ¬cond i)
    (x0 : Vec F S1x512x512 .f32) (x1 : Vec F S1x16x512 .f32) (x2 : Vec F S1x16x512 .f32) (xo : Vec F S1x8x128 .f32) : Vec F S1x8x128 .f32 :=
  VO3.read (Elt F) (VO3.writes (Elt F) VO3.junk (kernelRunB c i arg3 harg3 arg4 harg4 arg5 harg5 arg6 harg6 hc x0 x1 x2 xo).1)

/-! ## What the output's buffer holds after each point -/

/-- The accumulation. What the output's staging buffer holds after the body at position `n`: at a multiple of 16
    the resetting case run at the point's buffers and input blocks, otherwise the accumulating case over what this
    leaves at `n - 1`. -/
def outsAt (c : Dev nD) : (n : ℕ) → n < cfg0.N → Vec F S1x8x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond ⟨0, hn⟩).mpr (Nat.zero_mod _)) (iblk m c 0 ⟨0, hn⟩) (iblk m c 1 ⟨0, hn⟩) (iblk m c 2 ⟨0, hn⟩)
  | n + 1, hn =>
    if h0 : (n + 1) % 16 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond ⟨n + 1, hn⟩).mpr h0) (iblk m c 0 ⟨n + 1, hn⟩) (iblk m c 1 ⟨n + 1, hn⟩) (iblk m c 2 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond ⟨n + 1, hn⟩).mp h)) (iblk m c 0 ⟨n + 1, hn⟩) (iblk m c 1 ⟨n + 1, hn⟩) (iblk m c 2 ⟨n + 1, hn⟩) (outsAt c n (Nat.lt_of_succ_lt hn))

/-- `outsAt` at a resetting point: case A's contents. -/
theorem outsAt_A (c : Dev nD) (t : Fin cfg0.N) (h0 : t.val % 16 = 0) :
    outsAt m c t.val t.isLt = outA c (grid0.coords t) (ms0 t) (hs0 t) (ms1 t) (hs1 t) (ms2 t) (hs2 t) (ms3 t) (hs3 t) ((hcond t).mpr h0) (iblk m c 0 t) (iblk m c 1 t) (iblk m c 2 t) := by
  obtain ⟨n, hn⟩ := t
  cases n with
  | zero => exact rfl
  | succ n => exact (dif_pos h0).trans rfl

/-- `outsAt` at any other point: case B's contents, over what the point before left. -/
theorem outsAt_B (c : Dev nD) (t : Fin cfg0.N) (h0 : ¬t.val % 16 = 0) :
    outsAt m c t.val t.isLt = outB c (grid0.coords t) (ms0 t) (hs0 t) (ms1 t) (hs1 t) (ms2 t) (hs2 t) (ms3 t) (hs3 t) (fun h => h0 ((hcond t).mp h)) (iblk m c 0 t) (iblk m c 1 t) (iblk m c 2 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block and the output's at `outsAt`; the library's plain invariant; nothing
    owed; the scores' and the result's arrays held whole, the membership array half by each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q w := match w with
    | ⟨0, _⟩ => fullShare
    | ⟨1, _⟩ => fullShare.left
    | ⟨2, _⟩ => fullShare.right
    | ⟨3, _⟩ => fullShare
  owed _ := 0

/-- The proof data's fields, projected. -/
theorem A_eq (c : Dev nD) (w : Fin cfg0.W) : (dats m 0 c).A w = V m c (Pipeline.arrRef spec0 w) := by
  dsimp only [dats]
theorem q0_eq (c : Dev nD) : (dats m 0 c).q 0 = fullShare := by dsimp only [dats]
theorem q1_eq (c : Dev nD) : (dats m 0 c).q 1 = fullShare.left := by dsimp only [dats]
theorem q2_eq (c : Dev nD) : (dats m 0 c).q 2 = fullShare.right := by dsimp only [dats]
theorem q3_eq (c : Dev nD) : (dats m 0 c).q 3 = fullShare := by dsimp only [dats]
theorem Phi_eq (c : Dev nD) (t : Fin (cfg0.N + 1)) : (dats m 0 c).Φ t = Pipeline.ΦA spec0 c := by dsimp only [dats]
theorem owed_eq (c : Dev nD) (t : Fin (cfg0.N + 1)) : (dats m 0 c).owed t = 0 := by dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outsAt m c t.val t.isLt := by dsimp only [dats]

/-- Each input's current staging buffer holds its block at every point, fetched there or not: where it is not
    fetched its block index has not moved since the point before, whose block the body left in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- At a point that is no multiple of 16 the output's current staging buffer holds what the body left at the point
    before: the point is not the first, and the buffer was not written back between (write-backs follow only the
    points ≡ 15 mod 16). -/
theorem before3_B (c : Dev nD) (t : Fin cfg0.N) (h0 : ¬t.val % 16 = 0) (d) :
    (dats m 0 c).before 3 t d = outsAt m c (t.val - 1) (Nat.lt_of_le_of_lt (Nat.sub_le _ _) t.isLt) := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

end Cert.KernelIdeal.Hand

end
-- ==== Proof.KBody.lean ====
/-
  The body obligation of the pipeline: at every grid point, from the invariant and the four windows' current
  staging buffers at what they then hold, the kernel body runs to the invariant and the buffers at what the proof
  data says it leaves. The inputs' buffers hold their blocks; a point is a multiple of 16 or not, which decides
  the body's conditional; in the second case the output's buffer holds what the point before left. In either case
  the run of the whole body applies, and since its stores cover the output's block, what the buffer ends with is
  those stores read back.
-/
import proofs.«167607_j446676599061_2_alg».proof.Proof.KData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the body is called with at point `t`: the invariant, what the core owes, and each window's current
    staging buffer at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it returns: the same at the next point, each buffer at what the body leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  have hN : t.val < 256 := lt_of_lt_of_eq t.isLt (show cfg0.N = 256 from N_0)
  by_cases h0 : t.val % 16 = 0
  · rw [outsAt_A m c t h0]
    unfold outA
    iintro ⟨HΦ, Ho, ⟨%d0, H0⟩, ⟨%d1, H1⟩, ⟨%d2, H2⟩, ⟨%d3, H3⟩⟩
    iapply ((kernelRunA c (grid0.coords t) _ _ _ _ _ _ _ _ ((hcond t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _)
  · rw [outsAt_B m c t h0]
    simp only [before3_B m c t h0]
    unfold outB
    iintro ⟨HΦ, Ho, ⟨%d0, H0⟩, ⟨%d1, H1⟩, ⟨%d2, H2⟩, ⟨%d3, H3⟩⟩
    iapply ((kernelRunB c (grid0.coords t) _ _ _ _ _ _ _ _ (fun h => h0 ((hcond t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _)

/-- The library's body obligation, at every point. -/
theorem body_obligation (c : Dev nD) : BodyObligation (dats (F := F) m 0 c) (defs₀ (F := F)) Variants.none () Set.univ := fun t => by
  rw [Gen.bigSep_W0, Gen.bigSep_W0]
  exact sound_body m c t

end Cert.KernelIdeal.Hand

end
-- ==== Proof.KPieces.lean ====
/-
  The accumulator's contents in terms of the body's arithmetic. In the resetting case the output's buffer ends
  with the zero block plus the point's partial sum: the last store covers the whole block, and the value it adds
  to was read back from the zero block just stored. In the accumulating case it ends with what it held on entry
  plus the point's partial sum. Each load of a whole staging buffer reads that buffer's contents, so the partial
  sum is the body's arithmetic applied to the three input blocks. Point by point this gives the recurrence the
  accumulator obeys along the grid.
-/
import proofs.«167607_j446676599061_2_alg».proof.Proof.KBody
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The zero offsets of a rank-3 rectangle, as the constant function. -/
theorem hz3 : (![0, 0, 0] : Fin 3 → Nat) = fun _ => 0 := funext fun a => by fin_cases a <;> rfl

/-- Case A leaves the zero block plus the partial sum of the three input blocks. -/
theorem outA_eq (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : cond i)
    (x0 : Vec F S1x512x512 .f32) (x1 : Vec F S1x16x512 .f32) (x2 : Vec F S1x16x512 .f32) :
    outA c i arg3 harg3 arg4 harg4 arg5 harg5 arg6 harg6 hc x0 x1 x2 = k0_pay1 (k0_pay3 x1 x2 x0) (k0_pay2 (F := F)) := by
  unfold outA
  rw [View.read_writes_eq_canon _ _ _ (coverA c i arg3 harg3 arg4 harg4 arg5 harg5 arg6 harg6 hc x0 x1 x2)]
  unfold kernelRunA
  dsimp only
  sl_unfold_words
  rw [View.canon_cons_unit_zero (S := S1x8x128) hz3, View.readCov_unit_zero (S := S1x8x128) _ hz3]
  simp only [View.readAt_eq_ld, harg3.read_unread, harg4.read_unread, harg5.read_unread,
    View.ld_unit_zero (S := S1x16x512) hz3, View.ld_unit_zero (S := S1x512x512) hz3]

/-- Case B leaves what the buffer held on entry plus the partial sum of the three input blocks. -/
theorem outB_eq (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : ¬cond i)
    (x0 : Vec F S1x512x512 .f32) (x1 : Vec F S1x16x512 .f32) (x2 : Vec F S1x16x512 .f32) (xo : Vec F S1x8x128 .f32) :
    outB c i arg3 harg3 arg4 harg4 arg5 harg5 arg6 harg6 hc x0 x1 x2 xo = k0_pay1 (k0_pay3 x1 x2 x0) xo := by
  unfold outB
  rw [View.read_writes_eq_canon _ _ _ (coverB c i arg3 harg3 arg4 harg4 arg5 harg5 arg6 harg6 hc x0 x1 x2 xo)]
  unfold kernelRunB
  dsimp only
  sl_unfold_words
  rw [View.canon_unit_zero (S := S1x8x128) hz3]
  simp only [View.readAt_eq_ld, harg3.read_unread, harg4.read_unread, harg5.read_unread, harg6.read_unread,
    View.ld_unit_zero (S := S1x16x512) hz3, View.ld_unit_zero (S := S1x512x512) hz3, View.ld_unit_zero (S := S1x8x128) hz3]

/-- At a multiple of 16 the accumulator is the zero block plus that point's partial sum. -/
theorem outsAt_first (c : Dev nD) (t : Fin cfg0.N) (h : t.val % 16 = 0) :
    outsAt m c t.val t.isLt = Gen.k0_pay1 (Gen.k0_pay3 (iblk m c 1 t) (iblk m c 2 t) (iblk m c 0 t)) (Gen.k0_pay2 (F := F)) := by
  rw [outsAt_A m c t h]
  exact outA_eq c (grid0.coords t) (ms0 t) (hs0 t) (ms1 t) (hs1 t) (ms2 t) (hs2 t) (ms3 t) (hs3 t) ((hcond t).mpr h) (iblk m c 0 t) (iblk m c 1 t) (iblk m c 2 t)

/-- At any other point it is what the point before left plus that point's partial sum. -/
theorem outsAt_next (c : Dev nD) (t : Fin cfg0.N) (h : ¬ t.val % 16 = 0) :
    outsAt m c t.val t.isLt = Gen.k0_pay1 (Gen.k0_pay3 (iblk m c 1 t) (iblk m c 2 t) (iblk m c 0 t)) (outsAt m c (t.val - 1) (Nat.lt_of_le_of_lt (Nat.sub_le _ _) t.isLt)) := by
  rw [outsAt_B m c t h]
  exact outB_eq c (grid0.coords t) (ms0 t) (hs0 t) (ms1 t) (hs1 t) (ms2 t) (hs2 t) (ms3 t) (hs3 t) (fun hh => h ((hcond t).mp hh)) (iblk m c 0 t) (iblk m c 1 t) (iblk m c 2 t) (outsAt m c (t.val - 1) (Nat.lt_of_le_of_lt (Nat.sub_le _ _) t.isLt))

end Cert.KernelIdeal.Hand

end
-- ==== Proof.Spec.lean ====
/-
  The quantity both programs compute, written once over the extended reals.

  Batch `b` has sixteen clusters; `M b k i` is 1 when position `i` lies in cluster `k` of batch `b`
  and 0 otherwise. Two positions `i`, `j` are related when some cluster holds both, that is when the
  count `cov M b i j = ∑ k, M b k i * M b k j` is positive. The loss is the mean over all
  16 · 2048 · 2048 entries of the squared difference between the score `x b i j` and the 0/1
  indicator of that relation. The threshold `θ` against which the count is compared is a parameter:
  one program compares with 0 and the other with 1/2, and for a count that is a natural number the
  two comparisons agree.
-/
import Idealize.ShloMosaic.PureOps.Ideal

noncomputable section

open scoped BigOperators

namespace Cert.Spec

open Idealize.ShloMosaic

/-- The indicator of a decided condition as an extended real: 1 when it holds, 0 when it does not. -/
def ind (b : Bool) : EReal := if b then 1 else 0

/-- How many clusters of batch `b` hold both position `i` and position `j`. -/
def cov (M : Fin 16 → Fin 16 → Fin 2048 → EReal) (b : Fin 16) (i j : Fin 2048) : EReal :=
  ∑ k : Fin 16, M b k i * M b k j

/-- The squared difference between the score at `(b, i, j)` and the indicator that the count there exceeds `θ`. -/
def sqErr (θ : EReal) (x : Fin 16 → Fin 2048 → Fin 2048 → EReal) (M : Fin 16 → Fin 16 → Fin 2048 → EReal)
    (b : Fin 16) (i j : Fin 2048) : EReal :=
  (x b i j - ind (decide (θ < cov M b i j))) * (x b i j - ind (decide (θ < cov M b i j)))

/-- The sum of the squared differences over every batch and every pair of positions. -/
def total (θ : EReal) (x : Fin 16 → Fin 2048 → Fin 2048 → EReal) (M : Fin 16 → Fin 16 → Fin 2048 → EReal) : EReal :=
  ∑ b : Fin 16, ∑ i : Fin 2048, ∑ j : Fin 2048, sqErr θ x M b i j

/-- The mean squared difference: the sum, started from zero, divided by the number of entries 2^26
    (the word `0x4C800000` is the single-precision pattern of 67108864). -/
def mean (θ : EReal) (x : Fin 16 → Fin 2048 → Fin 2048 → EReal) (M : Fin 16 → Fin 16 → Fin 2048 → EReal) : EReal :=
  Ideal.div (0 + total θ x M) (Ideal.ofBits .f32 0x4C800000#32)

end Cert.Spec

end
-- ==== Proof.SpecLaws.lean ====
/-
  Laws of the common specification, with no program in sight.

  The count `cov M b i j` is a sum of sixteen products of zeros and ones, hence the cast of a natural
  number; a natural number exceeds 1/2 exactly when it exceeds 0, so the indicator taken against the
  threshold 1/2 is the indicator taken against 0, and the two means agree. The sum over 2048 positions
  is the sum over four tiles of 512 positions each, and the total squared error is the sum over batches
  and pairs of tiles of the tile's own double sum. Last, three readings of words: the one-bit word of
  a decided condition, read as a natural number or widened to 32 bits and read as an integer, is the
  indicator of the condition; and the single-precision pattern `0x3F000000` denotes 1/2.
-/
import proofs.«167607_j446676599061_2_alg».proof.Proof.Spec

noncomputable section

open scoped BigOperators

namespace Cert.Spec

open Idealize.ShloMosaic

/-! ## A sum of zeros and ones is a natural number -/

/-- A finite sum of extended reals each of which is 0 or 1 is the cast of a natural number. -/
theorem exists_nat_of_sum_zero_one {ι : Type} (s : Finset ι) (f : ι → EReal) (hf : ∀ k, f k = 0 ∨ f k = 1) :
    ∃ n : ℕ, ∑ k ∈ s, f k = (((n : ℕ) : ℝ) : EReal) := by
  classical
  induction s using Finset.induction_on with
  | empty => exact ⟨0, by simp⟩
  | insert a s ha ih =>
    obtain ⟨n, hn⟩ := ih
    rw [Finset.sum_insert ha, hn]
    rcases hf a with h | h
    · exact ⟨n, by rw [h, zero_add]⟩
    · refine ⟨n + 1, ?_⟩
      rw [h, ← EReal.coe_one, ← EReal.coe_add]
      push_cast
      rw [add_comm]

/-- A product of two extended reals each 0 or 1 is 0 or 1. -/
theorem mul_zero_one {a b : EReal} (ha : a = 0 ∨ a = 1) (hb : b = 0 ∨ b = 1) : a * b = 0 ∨ a * b = 1 := by
  rcases ha with rfl | rfl
  · exact Or.inl (zero_mul _)
  · rw [one_mul]; exact hb

/-- The count of clusters holding both positions is the cast of a natural number. -/
theorem cov_eq_nat (M : Fin 16 → Fin 16 → Fin 2048 → EReal) (hM : ∀ b k i, M b k i = 0 ∨ M b k i = 1)
    (b : Fin 16) (i j : Fin 2048) : ∃ n : ℕ, cov M b i j = (((n : ℕ) : ℝ) : EReal) :=
  exists_nat_of_sum_zero_one Finset.univ (fun k => M b k i * M b k j) (fun k => mul_zero_one (hM b k i) (hM b k j))

/-- A natural number exceeds 1/2 exactly when it exceeds 0. -/
theorem half_lt_nat_iff (n : ℕ) : ((1/2 : ℝ) : EReal) < (((n : ℕ) : ℝ) : EReal) ↔ (0 : EReal) < (((n : ℕ) : ℝ) : EReal) := by
  rw [← EReal.coe_zero, EReal.coe_lt_coe_iff, EReal.coe_lt_coe_iff]
  rcases Nat.eq_zero_or_pos n with rfl | h
  · norm_num
  · have h1 : (1 : ℝ) ≤ (n : ℝ) := by exact_mod_cast h
    constructor
    · intro _; linarith
    · intro _; linarith

/-- On 0/1 membership tables the indicator against the threshold 1/2 is the indicator against 0. -/
theorem ind_half_eq_zero (M : Fin 16 → Fin 16 → Fin 2048 → EReal) (hM : ∀ b k i, M b k i = 0 ∨ M b k i = 1)
    (b : Fin 16) (i j : Fin 2048) :
    ind (decide (((1/2 : ℝ) : EReal) < cov M b i j)) = ind (decide ((0 : EReal) < cov M b i j)) := by
  obtain ⟨n, hn⟩ := cov_eq_nat M hM b i j
  rw [hn]
  exact congrArg ind (decide_eq_decide.mpr (half_lt_nat_iff n))

/-- So the mean squared difference does not depend on which of the two thresholds is used. -/
theorem mean_half_eq_zero (x : Fin 16 → Fin 2048 → Fin 2048 → EReal) (M : Fin 16 → Fin 16 → Fin 2048 → EReal)
    (hM : ∀ b k i, M b k i = 0 ∨ M b k i = 1) : mean ((1/2 : ℝ) : EReal) x M = mean 0 x M := by
  have h : ∀ b i j, sqErr ((1/2 : ℝ) : EReal) x M b i j = sqErr 0 x M b i j := by
    intro b i j
    unfold sqErr
    rw [ind_half_eq_zero M hM b i j]
  unfold mean total
  simp only [h]

/-! ## The positions in four tiles of 512 -/

/-- A sum over the 2048 positions is the sum over the four tiles of the sums over each tile's 512 positions. -/
theorem sum_tiles {A : Type} [AddCommMonoid A] (f : Fin 2048 → A) :
    ∑ i : Fin 2048, f i
      = ∑ ti : Fin 4, ∑ a : Fin 512, f ⟨512 * ti.val + a.val, by have := ti.isLt; have := a.isLt; omega⟩ := by
  rw [← Equiv.sum_comp (finProdFinEquiv : Fin 4 × Fin 512 ≃ Fin 2048) f, Fintype.sum_prod_type]
  refine Finset.sum_congr rfl fun ti _ => Finset.sum_congr rfl fun a _ => congrArg f (Fin.ext ?_)
  show a.val + 512 * ti.val = 512 * ti.val + a.val
  omega

/-- The total squared error is the sum over batches and pairs of tiles of each tile's double sum. -/
theorem total_tiles (θ : EReal) (x : Fin 16 → Fin 2048 → Fin 2048 → EReal) (M : Fin 16 → Fin 16 → Fin 2048 → EReal) :
    total θ x M = ∑ b : Fin 16, ∑ ti : Fin 4, ∑ tj : Fin 4, ∑ a : Fin 512, ∑ a' : Fin 512,
      sqErr θ x M b ⟨512 * ti.val + a.val, by have := ti.isLt; have := a.isLt; omega⟩
        ⟨512 * tj.val + a'.val, by have := tj.isLt; have := a'.isLt; omega⟩ := by
  unfold total
  refine Finset.sum_congr rfl fun b _ => ?_
  rw [sum_tiles]
  refine Finset.sum_congr rfl fun ti _ => ?_
  refine (Finset.sum_congr rfl fun a _ => sum_tiles _).trans ?_
  exact Finset.sum_comm

/-! ## Words read as numbers -/

/-- The one-bit word of a decided condition, read as a natural number, is the condition's indicator. -/
theorem ind_ofBool_toNat (p : Bool) : (((BitVec.ofBool p).toNat : ℝ) : EReal) = ind p := by
  cases p <;> simp [ind]

/-- The same word widened with zeros to 32 bits and read as a signed integer is the indicator too:
    the widened word is 0 or 1, far below the sign bit. -/
theorem ind_ofBool_extui_toInt (p : Bool) : ((((BitVec.ofBool p).setWidth 32).toInt : ℝ) : EReal) = ind p := by
  cases p
  · have h : ((BitVec.ofBool false).setWidth 32).toInt = 0 := by decide
    rw [h]; simp [ind]
  · have h : ((BitVec.ofBool true).setWidth 32).toInt = 1 := by decide
    rw [h]; simp [ind]

/-- The single-precision pattern `0x3F000000` (sign 0, exponent 126, fraction 0) denotes 2^23 · 2^(126 − 127 − 23) = 1/2. -/
theorem ofBits_half : Ideal.ofBits .f32 0x3F000000#32 = ((1/2 : ℝ) : EReal) := by
  simp [Ideal.ofBits, Ideal.ieee, -EReal.coe_mul]; norm_num

end Cert.Spec

end
-- ==== Proof.KPayload.lean ====
/-
  The kernel body's arithmetic read at an index.

  One grid point holds a 512 × 512 tile of scores and two 16 × 512 tiles of the membership table. The body forms
  the 512 × 512 matrix of counts (the contraction of the two membership tiles over the sixteen clusters), compares
  each count with 1/2, subtracts the resulting 0/1 indicator from the score, squares, sums each row and then the
  column of row sums, and puts the one number so obtained at position (0, 0) of an 8 × 128 vector that is zero
  elsewhere. That vector is added to the 8 × 128 accumulator, which the first grid point of a batch starts from zero.
-/
import proofs.«167607_j446676599061_2_alg».proof.Proof.Gen.KernelIdeal.Skeleton
import proofs.«167607_j446676599061_2_alg».proof.Proof.SpecLaws
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.Spec

/-! ## The mask: row 0 and column 0 -/

/-- A natural number below 2^32, written as a 32-bit word, equals the zero word exactly when it is zero. -/
theorem cmpi_eq_zero (n : Nat) (hn : n < 4294967296) :
    IntOp.cmpi .eq (BitVec.ofNat 32 n) 0#32 = if n = 0 then 1#1 else 0#1 := by
  by_cases h : n = 0
  · subst h; rfl
  · rw [if_neg h]
    have hne : (BitVec.ofNat 32 n == 0#32) = false := by
      rw [beq_eq_false_iff_ne]
      intro e
      have e' := congrArg BitVec.toNat e
      rw [BitVec.toNat_ofNat] at e'
      have : n % 2 ^ 32 = n := Nat.mod_eq_of_lt (by omega)
      simp at e'
      omega
    show BitVec.ofBool (BitVec.ofNat 32 n == 0#32) = 0#1
    rw [hne]; rfl

/-- The conjunction of "row coordinate is 0" and "column coordinate is 0", as a one-bit word at position (r, l). -/
theorem mask_apply (h0 : S8x128.Iotas .tc 32 [0]) (h1 : S8x128.Iotas .tc 32 [1]) (r : Fin 8) (l : Fin 128) :
    andi (cmpi .eq (iota .tc S8x128 32 [0] h0) (broadcast S8x128 0#32))
        (cmpi .eq (iota .tc S8x128 32 [1] h1) (broadcast S8x128 0#32)) (ix2 r l)
      = if r.val = 0 ∧ l.val = 0 then 1#1 else 0#1 := by
  show IntOp.andi (IntOp.cmpi .eq (iota .tc S8x128 32 [0] h0 (ix2 r l)) 0#32)
      (IntOp.cmpi .eq (iota .tc S8x128 32 [1] h1 (ix2 r l)) 0#32) = _
  rw [iota_single_apply, iota_single_apply]
  show IntOp.andi (IntOp.cmpi .eq (BitVec.ofNat 32 r.val) 0#32) (IntOp.cmpi .eq (BitVec.ofNat 32 l.val) 0#32) = _
  rw [cmpi_eq_zero r.val (by have := r.isLt; omega), cmpi_eq_zero l.val (by have := l.isLt; omega)]
  by_cases hr : r.val = 0
  · by_cases hl : l.val = 0
    · rw [if_pos hr, if_pos hl, if_pos ⟨hr, hl⟩]; rfl
    · rw [if_pos hr, if_neg hl, if_neg (fun h => hl h.2)]; rfl
  · by_cases hl : l.val = 0
    · rw [if_neg hr, if_pos hl, if_neg (fun h => hr h.1)]; rfl
    · rw [if_neg hr, if_neg hl, if_neg (fun h => hr h.1)]; rfl

/-! ## The counts: the contraction over the sixteen clusters -/

/-- At output position (a, a') and cluster k the contraction reads its left operand at (a, k) … -/
theorem dot_lhs_0 (j : S512x512.Idx) (q : dot_S512x16_S16x512_S512x512_1_0_0_1_n_n.contr.Idx) :
    (dot_S512x16_S16x512_S512x512_1_0_0_1_n_n.lhsIdx j q 0).val = (j 0).val := by
  unfold DotDims.lhsIdx
  rw [dif_neg (show ¬(0 : Fin S512x16.rank) ∈ dot_S512x16_S16x512_S512x512_1_0_0_1_n_n.lhsBatch by decide),
    dif_pos (show (0 : Fin S512x16.rank) ∈ dot_S512x16_S16x512_S512x512_1_0_0_1_n_n.lhsNonContracting by decide)]
  rfl
theorem dot_lhs_1 (j : S512x512.Idx) (q : dot_S512x16_S16x512_S512x512_1_0_0_1_n_n.contr.Idx) :
    (dot_S512x16_S16x512_S512x512_1_0_0_1_n_n.lhsIdx j q 1).val = (q ⟨0, by decide⟩).val :=
  dot_S512x16_S16x512_S512x512_1_0_0_1_n_n.lhsIdx_val_of_single rfl j q
/-- … and its right operand at (k, a'). -/
theorem dot_rhs_0 (j : S512x512.Idx) (q : dot_S512x16_S16x512_S512x512_1_0_0_1_n_n.contr.Idx) :
    (dot_S512x16_S16x512_S512x512_1_0_0_1_n_n.rhsIdx j q 0).val = (q ⟨0, by decide⟩).val :=
  dot_S512x16_S16x512_S512x512_1_0_0_1_n_n.rhsIdx_val_of_single rfl j q
theorem dot_rhs_1 (j : S512x512.Idx) (q : dot_S512x16_S16x512_S512x512_1_0_0_1_n_n.contr.Idx) :
    (dot_S512x16_S16x512_S512x512_1_0_0_1_n_n.rhsIdx j q 1).val = (j 1).val := by
  unfold DotDims.rhsIdx
  rw [dif_neg (show ¬(1 : Fin S16x512.rank) ∈ dot_S512x16_S16x512_S512x512_1_0_0_1_n_n.rhsBatch by decide),
    dif_pos (show (1 : Fin S16x512.rank) ∈ dot_S512x16_S16x512_S512x512_1_0_0_1_n_n.rhsNonContracting by decide)]
  rfl

/-- The matrix product into the zero accumulator, read at (a, a'): the sum over the sixteen clusters of the
    products of the left operand's row a and the right operand's column a'. -/
theorem matmul_zero_apply (lhs : FVec Ideal S512x16 .bf16) (rhs : FVec Ideal S16x512 .bf16) (a a' : Fin 512) :
    matmul dot_S512x16_S16x512_S512x512_1_0_0_1_n_n none lhs rhs (constant (F := Ideal) S512x512 .f32 0x00000000#32) (ix2 a a')
      = ∑ k : Fin 16, lhs (ix2 a k) * rhs (ix2 k a') := by
  simp only [matmul]
  rw [Ideal.matmul_constant_zero_apply,
    ← Equiv.sum_comp (contrEquiv1 dot_S512x16_S16x512_S512x512_1_0_0_1_n_n 16 rfl rfl).symm]
  refine Finset.sum_congr rfl fun k _ => ?_
  have hk := contrEquiv1_symm_val dot_S512x16_S16x512_S512x512_1_0_0_1_n_n 16 rfl rfl k
  have el : dot_S512x16_S16x512_S512x512_1_0_0_1_n_n.lhsIdx (ix2 a a')
      ((contrEquiv1 dot_S512x16_S16x512_S512x512_1_0_0_1_n_n 16 rfl rfl).symm k) = ix2 a k := funext fun c => Fin.ext (by
    match c with
    | ⟨0, _⟩ => exact dot_lhs_0 _ _
    | ⟨1, _⟩ => exact (dot_lhs_1 _ _).trans hk)
  have er : dot_S512x16_S16x512_S512x512_1_0_0_1_n_n.rhsIdx (ix2 a a')
      ((contrEquiv1 dot_S512x16_S16x512_S512x512_1_0_0_1_n_n 16 rfl rfl).symm k) = ix2 k a' := funext fun c => Fin.ext (by
    match c with
    | ⟨0, _⟩ => exact (dot_rhs_0 _ _).trans hk
    | ⟨1, _⟩ => exact dot_rhs_1 _ _)
  rw [el, er]

/-- The tile of counts: the two 16 × 512 membership tiles, the first transposed, contracted over the clusters
    (the change of format on the way in is the identity on extended reals). -/
def cntTile (v5 v8 : Vec Ideal S1x16x512 .f32) : FVec Ideal S512x512 .f32 :=
  matmul dot_S512x16_S16x512_S512x512_1_0_0_1_n_n none
    (transpose S512x16 [1, 0] (truncf .bf16 (shapeCast S16x512 v5 Gen.shapeCasts_S1x16x512_S16x512) Gen.bitsLt_bf16_f32)
      Gen.transposes_S16x512_p1_0_S512x16)
    (truncf .bf16 (shapeCast S16x512 v8 Gen.shapeCasts_S1x16x512_S16x512) Gen.bitsLt_bf16_f32)
    (constant (F := Ideal) S512x512 .f32 0x00000000#32)

/-- The count at (a, a') is the sum over the clusters of the products of the two membership entries. -/
theorem cntTile_apply (v5 v8 : Vec Ideal S1x16x512 .f32) (a a' : Fin 512) :
    cntTile v5 v8 (ix2 a a') = ∑ k : Fin 16, v5 (ix3 0 k a) * v8 (ix3 0 k a') := by
  unfold cntTile
  refine (matmul_zero_apply _ _ a a').trans (Finset.sum_congr rfl fun k _ => ?_)
  refine congrArg₂ (· * ·) ?_ ?_
  · exact (transpose_ix2_apply _ Gen.transposes_S16x512_p1_0_S512x16 a k).trans
      (shapeCast_1ab_ab_apply v5 Gen.shapeCasts_S1x16x512_S16x512 k a)
  · exact shapeCast_1ab_ab_apply v8 Gen.shapeCasts_S1x16x512_S16x512 k a'

/-! ## The squared difference between score and indicator -/

/-- Comparing a count with the word for 1/2, widening the resulting bit to 32 bits and converting it to a number
    gives the indicator that the count exceeds 1/2. -/
theorem ind_cmp_half (c : Ideal .f32) :
    FloatOps.sitofp (F := Ideal) .f32 ((FloatOps.cmpf .ogt c (Scalar.ofBits (F := Ideal) .f32 0x3F000000#32)).setWidth 32)
      = ind (decide (((1/2 : ℝ) : EReal) < c)) := by
  show ((((BitVec.ofBool (decide (Ideal.ofBits .f32 0x3F000000#32 < c))).setWidth 32).toInt : ℝ) : EReal) = _
  rw [ind_ofBool_extui_toInt, ofBits_half]

/-- The tile of differences: the score minus the indicator that the count exceeds 1/2. -/
def errTile (v5 v8 : Vec Ideal S1x16x512 .f32) (v17 : Vec Ideal S1x512x512 .f32) : FVec Ideal S512x512 .f32 :=
  subf (shapeCast S512x512 v17 Gen.shapeCasts_S1x512x512_S512x512)
    (sitofp .f32 (extui 32 (cmpf .ogt (cntTile v5 v8) (broadcast S512x512 (Scalar.ofBits (F := Ideal) .f32 0x3F000000#32)))
      Gen.natLt_1_32))

theorem errTile_apply (v5 v8 : Vec Ideal S1x16x512 .f32) (v17 : Vec Ideal S1x512x512 .f32) (a a' : Fin 512) :
    errTile v5 v8 v17 (ix2 a a')
      = v17 (ix3 0 a a') - ind (decide (((1/2 : ℝ) : EReal) < ∑ k : Fin 16, v5 (ix3 0 k a) * v8 (ix3 0 k a'))) := by
  show shapeCast S512x512 v17 Gen.shapeCasts_S1x512x512_S512x512 (ix2 a a')
      - FloatOps.sitofp (F := Ideal) .f32
          ((FloatOps.cmpf .ogt (cntTile v5 v8 (ix2 a a')) (Scalar.ofBits (F := Ideal) .f32 0x3F000000#32)).setWidth 32) = _
  rw [shapeCast_1ab_ab_apply, ind_cmp_half, cntTile_apply]

/-- The tile of squared differences. -/
def sqTile (v5 v8 : Vec Ideal S1x16x512 .f32) (v17 : Vec Ideal S1x512x512 .f32) : FVec Ideal S512x512 .f32 :=
  mulf (errTile v5 v8 v17) (errTile v5 v8 v17)

theorem sqTile_apply (v5 v8 : Vec Ideal S1x16x512 .f32) (v17 : Vec Ideal S1x512x512 .f32) (a a' : Fin 512) :
    sqTile v5 v8 v17 (ix2 a a')
      = (v17 (ix3 0 a a') - ind (decide (((1/2 : ℝ) : EReal) < ∑ k : Fin 16, v5 (ix3 0 k a) * v8 (ix3 0 k a'))))
        * (v17 (ix3 0 a a') - ind (decide (((1/2 : ℝ) : EReal) < ∑ k : Fin 16, v5 (ix3 0 k a) * v8 (ix3 0 k a')))) := by
  show errTile v5 v8 v17 (ix2 a a') * errTile v5 v8 v17 (ix2 a a') = _
  rw [errTile_apply]

/-! ## The two sums and the placement at (0, 0) -/

/-- The sum along each row: position a of the result is the sum over the columns of row a. -/
theorem rowSum_apply (src : FVec Ideal S512x512 .f32) (h : S512x512.Reduces [1] S512) (hφ : FKind.Formats .f32)
    (hacc : (0x00000000#32 : BitVec (FTy.bits .f32)) = FKind.add.neutral .f32 hφ) (a : Fin 512) :
    multiReduction (F := Ideal) .add [1] S512 src 0x00000000#32 h hφ hacc (ix1 a) = ∑ a' : Fin 512, src (ix2 a a') := by
  refine (Ideal.multiReduction_add_single src 0x00000000#32 h hφ hacc (ix1 a)).trans ?_
  refine Finset.sum_congr rfl fun k _ => congrArg src ?_
  funext c
  match c with
  | ⟨0, _⟩ => rfl
  | ⟨1, _⟩ => rfl

/-- The vector of row sums written as a column and summed: the one entry of the result is the sum of all of them. -/
theorem colSum_apply (y : FVec Ideal S512 .f32) (hc : S512.ShapeCasts S512x1) (h : S512x1.Reduces [0] S1)
    (hφ : FKind.Formats .f32) (hacc : (0x00000000#32 : BitVec (FTy.bits .f32)) = FKind.add.neutral .f32 hφ) :
    multiReduction (F := Ideal) .add [0] S1 (shapeCast S512x1 y hc) 0x00000000#32 h hφ hacc (ix1 (0 : Fin 1))
      = ∑ a : Fin 512, y (ix1 a) := by
  refine (Ideal.multiReduction_add_single _ 0x00000000#32 h hφ hacc (ix1 (0 : Fin 1))).trans ?_
  refine Finset.sum_congr rfl fun k _ => ?_
  refine shapeCast_apply y hc _ (ix1 k) ?_
  rw [Shape.rowMajor_val_one, Shape.rowMajor_val_two]
  show k.val = k.val * 1 + 0
  omega

/-- A one-entry vector viewed as 1 × 1, spread over the 8 × 128 positions and kept only where the mask holds. -/
theorem spread_apply (m : IVec S8x128 1) (x : FVec Ideal S1 .f32) (z : Ideal .f32) (h1 : S1.ShapeCasts S1x1)
    (h2 : S1x1.ShapeCasts S1x1) (h3 : S1x1.Broadcasts S8x128) (r : Fin 8) (l : Fin 128) :
    select m (broadcastTo S8x128 (shapeCast S1x1 (shapeCast S1x1 x h1) h2) h3) (broadcast S8x128 z) (ix2 r l)
      = Scalar.select (m (ix2 r l)) (x (ix1 (0 : Fin 1))) z := by
  have e : broadcastTo S8x128 (shapeCast S1x1 (shapeCast S1x1 x h1) h2) h3 (ix2 r l) = x (ix1 (0 : Fin 1)) := by
    rw [shapeCast_self]
    exact (broadcastTo_apply _ h3 (ix2 r l) (ix2 (0 : Fin 1) (0 : Fin 1))
      (fun c => match c with | ⟨0, _⟩ => rfl | ⟨1, _⟩ => rfl)).trans (shapeCast_a_1a_apply x h1 0 0)
  show Scalar.select (m (ix2 r l)) (broadcastTo S8x128 (shapeCast S1x1 (shapeCast S1x1 x h1) h2) h3 (ix2 r l)) z = _
  rw [e]

/-! ## The three payloads at an index -/

/-- What one grid point contributes: the sum over the tile's rows, each started from zero, of the sums over
    the row, each started from zero, of the squared differences. -/
def tileSum (v5 v8 : Vec Ideal S1x16x512 .f32) (v17 : Vec Ideal S1x512x512 .f32) : EReal :=
  0 + ∑ a : Fin 512, (0 + ∑ a' : Fin 512,
    (v17 (ix3 0 a a') - ind (decide (((1/2 : ℝ) : EReal) < ∑ k : Fin 16, v5 (ix3 0 k a) * v8 (ix3 0 k a'))))
    * (v17 (ix3 0 a a') - ind (decide (((1/2 : ℝ) : EReal) < ∑ k : Fin 16, v5 (ix3 0 k a) * v8 (ix3 0 k a')))))

/-- The vector a grid point adds to the accumulator: its contribution at position (0, 0), zero elsewhere. -/
theorem pay3_apply (v5 v8 : Vec Ideal S1x16x512 .f32) (v17 : Vec Ideal S1x512x512 .f32) (r : Fin 8) (l : Fin 128) :
    Gen.k0_pay3 (F := Ideal) v5 v8 v17 (ix2 r l) = if r.val = 0 ∧ l.val = 0 then tileSum v5 v8 v17 else 0 := by
  show select
      (andi (cmpi .eq (iota .tc S8x128 32 [0] Gen.iota_S8x128_d0_w32) (broadcast S8x128 0#32))
        (cmpi .eq (iota .tc S8x128 32 [1] Gen.iota_S8x128_d1_w32) (broadcast S8x128 0#32)))
      (broadcastTo S8x128 (shapeCast S1x1 (shapeCast S1x1
        (multiReduction (F := Ideal) .add [0] S1
          (shapeCast S512x1
            (multiReduction (F := Ideal) .add [1] S512 (sqTile v5 v8 v17) 0x00000000#32 Gen.reduces_S512x512_S512 (.inl rfl) rfl)
            Gen.shapeCasts_S512_S512x1)
          0x00000000#32 Gen.reduces_S512x1_S1 (.inl rfl) rfl)
        Gen.shapeCasts_S1_S1x1) Gen.shapeCasts_S1x1_S1x1) Gen.broadcasts_S1x1_S8x128)
      (broadcast S8x128 (Scalar.ofBits (F := Ideal) .f32 0x00000000#32)) (ix2 r l) = _
  rw [spread_apply, mask_apply]
  by_cases h : r.val = 0 ∧ l.val = 0
  · rw [if_pos h, if_pos h]
    refine (select_one _ _).trans ?_
    refine (colSum_apply _ Gen.shapeCasts_S512_S512x1 Gen.reduces_S512x1_S1 (.inl rfl) rfl).trans ?_
    unfold tileSum
    rw [zero_add]
    refine Finset.sum_congr rfl fun a _ => ?_
    refine (rowSum_apply (sqTile v5 v8 v17) Gen.reduces_S512x512_S512 (.inl rfl) rfl a).trans ?_
    rw [zero_add]
    exact Finset.sum_congr rfl fun a' _ => sqTile_apply v5 v8 v17 a a'
  · rw [if_neg h, if_neg h]
    exact (select_zero _ _).trans Ideal.ofBits_zero_f32

/-- The accumulator's new contents: the old contents plus the vector of the grid point. -/
theorem pay1_apply (v35 : FVec Ideal S8x128 .f32) (v36 : Vec Ideal S1x8x128 .f32) (r : Fin 8) (l : Fin 128) :
    Gen.k0_pay1 (F := Ideal) v35 v36 (ix3 0 r l) = v36 (ix3 0 r l) + v35 (ix2 r l) := by
  show shapeCast S1x8x128 (addf (shapeCast S8x128 v36 Gen.shapeCasts_S1x8x128_S8x128) v35) Gen.shapeCasts_S8x128_S1x8x128
      (ix3 (0 : Fin 1) r l) = _
  rw [shapeCast_ab_1ab_apply]
  show shapeCast S8x128 v36 Gen.shapeCasts_S1x8x128_S8x128 (ix2 r l) + v35 (ix2 r l) = _
  rw [shapeCast_1ab_ab_apply]

/-- What the first grid point of a batch stores before anything is added: zero everywhere. -/
theorem pay2_apply (r : Fin 8) (l : Fin 128) : Gen.k0_pay2 (F := Ideal) (ix3 0 r l) = 0 := by
  show shapeCast S1x8x128 (broadcast S8x128 (Scalar.ofBits (F := Ideal) .f32 0x00000000#32)) Gen.shapeCasts_S8x128_S1x8x128
      (ix3 (0 : Fin 1) r l) = _
  rw [shapeCast_ab_1ab_apply]
  exact Ideal.ofBits_zero_f32

end Cert.KernelIdeal.Hand

end
-- ==== Proof.KBlocks.lean ====
/-
  From the windows' blocks to the whole arrays. The grid has 16 · 4 · 4 = 256 points; point t has coordinates
  b = t / 16, i = (t / 4) % 4, j = t % 4. The scores' window reads the 512 × 512 tile (i, j) of batch b, the two
  membership windows read the 16 × 512 column strips i and j of batch b, and the partial sums' window holds the
  8 × 128 block of batch b, written back once, after the last point 16 b + 15 of the batch. So an element of a block is
  the array's element at block index × block size + the coordinate inside the block on every axis, and the partial
  sums' array ends holding, batch by batch, what the body left in the block at the batch's last point.
-/
import proofs.«167607_j446676599061_2_alg».proof.Proof.KData
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (m : (ℓ : Loc nD τ sig) → Buf (Elt F) ℓ)

/-! ## The coordinates of a point -/

/-- The four windows' block indices at point `t`, decided once over the grid: batch `t / 16` on the first axis of each;
    tile row `(t / 4) % 4` and tile column `t % 4` for the scores; strip `(t / 4) % 4` for the first membership window and
    strip `t % 4` for the second; block 0 on the partial sums' other axes. -/
theorem idx_facts : ∀ t : Fin cfg0.N, win0_0.index t 0 = t.val / 16 ∧ win0_0.index t 1 = (t.val / 4) % 4 ∧ win0_0.index t 2 = t.val % 4
    ∧ win0_1.index t 0 = t.val / 16 ∧ win0_1.index t 1 = 0 ∧ win0_1.index t 2 = (t.val / 4) % 4
    ∧ win0_2.index t 0 = t.val / 16 ∧ win0_2.index t 1 = 0 ∧ win0_2.index t 2 = t.val % 4
    ∧ win0_3.index t 0 = t.val / 16 ∧ win0_3.index t 1 = 0 ∧ win0_3.index t 2 = 0 :=
  (by decide +kernel : ∀ t : Fin grid0.N, _)

/-! ## The input blocks, element by element -/

/-- The scores' block at point `t` is the 512 × 512 tile at row tile `(t / 4) % 4`, column tile `t % 4` of batch `t / 16`. -/
theorem iblk0_apply (c : Dev nD) (t : Fin cfg0.N) (a a' : Fin 512) :
    iblk m c 0 t (ix3 0 a a')
      = V m c main_arg0 (ix3 ⟨t.val / 16, by have := lt_of_lt_of_eq t.isLt (show cfg0.N = 256 from N_0); omega⟩
          ⟨512 * ((t.val / 4) % 4) + a.val, by have := a.isLt; omega⟩
          ⟨512 * (t.val % 4) + a'.val, by have := a'.isLt; omega⟩) := by
  obtain ⟨e0, e1, e2, -⟩ := idx_facts t
  unfold iblk
  rw [View.read_apply]
  show V m c main_arg0 (((cfg0.win 0).blk t).view.emb (ix3 0 a a')) = V m c main_arg0 _
  congr 1
  funext d
  apply Fin.ext
  match d with
  | ⟨0, _⟩ => show win0_0.index t 0 * 1 + 1 * (0 : Fin 1).val = t.val / 16; rw [e0]; simp
  | ⟨1, _⟩ => show win0_0.index t 1 * 512 + 1 * a.val = 512 * ((t.val / 4) % 4) + a.val; rw [e1]; omega
  | ⟨2, _⟩ => show win0_0.index t 2 * 512 + 1 * a'.val = 512 * (t.val % 4) + a'.val; rw [e2]; omega

/-- The first membership window's block at point `t` is the column strip `(t / 4) % 4` of batch `t / 16`: all sixteen
    clusters, positions `512 · ((t / 4) % 4) …`. -/
theorem iblk1_apply (c : Dev nD) (t : Fin cfg0.N) (k : Fin 16) (a : Fin 512) :
    iblk m c 1 t (ix3 0 k a)
      = V m c main_v17 (ix3 ⟨t.val / 16, by have := lt_of_lt_of_eq t.isLt (show cfg0.N = 256 from N_0); omega⟩ k
          ⟨512 * ((t.val / 4) % 4) + a.val, by have := a.isLt; omega⟩) := by
  obtain ⟨-, -, -, e0, e1, e2, -⟩ := idx_facts t
  unfold iblk
  rw [View.read_apply]
  show V m c main_v17 (((cfg0.win 1).blk t).view.emb (ix3 0 k a)) = V m c main_v17 _
  congr 1
  funext d
  apply Fin.ext
  match d with
  | ⟨0, _⟩ => show win0_1.index t 0 * 1 + 1 * (0 : Fin 1).val = t.val / 16; rw [e0]; simp
  | ⟨1, _⟩ => show win0_1.index t 1 * 16 + 1 * k.val = k.val; rw [e1]; omega
  | ⟨2, _⟩ => show win0_1.index t 2 * 512 + 1 * a.val = 512 * ((t.val / 4) % 4) + a.val; rw [e2]; omega

/-- The second membership window's block at point `t` is the column strip `t % 4` of batch `t / 16`. -/
theorem iblk2_apply (c : Dev nD) (t : Fin cfg0.N) (k : Fin 16) (a' : Fin 512) :
    iblk m c 2 t (ix3 0 k a')
      = V m c main_v17 (ix3 ⟨t.val / 16, by have := lt_of_lt_of_eq t.isLt (show cfg0.N = 256 from N_0); omega⟩ k
          ⟨512 * (t.val % 4) + a'.val, by have := a'.isLt; omega⟩) := by
  obtain ⟨-, -, -, -, -, -, e0, e1, e2, -⟩ := idx_facts t
  unfold iblk
  rw [View.read_apply]
  show V m c main_v17 (((cfg0.win 2).blk t).view.emb (ix3 0 k a')) = V m c main_v17 _
  congr 1
  funext d
  apply Fin.ext
  match d with
  | ⟨0, _⟩ => show win0_2.index t 0 * 1 + 1 * (0 : Fin 1).val = t.val / 16; rw [e0]; simp
  | ⟨1, _⟩ => show win0_2.index t 1 * 16 + 1 * k.val = k.val; rw [e1]; omega
  | ⟨2, _⟩ => show win0_2.index t 2 * 512 + 1 * a'.val = 512 * (t.val % 4) + a'.val; rw [e2]; omega

/-! ## The partial sums' array after the run -/

/-- `outsAt` depends on the position only through its value. -/
theorem outsAt_congr (c : Dev nD) {n n' : ℕ} (h : n = n') (hn : n < cfg0.N) (hn' : n' < cfg0.N) :
    outsAt m c n hn = outsAt m c n' hn' := by
  subst h; rfl

/-- The partial sums' array as the run leaves it: batch `b`'s 8 × 128 block is what the body left in the staging
    buffer at the batch's last point `16 b + 15`. -/
def outG (c : Dev nD) : Buf (Elt F) ((c : Thread nD τ).loc main_v18) := fun (i : S16x8x128.Idx) =>
  outsAt m c (16 * (i 0).val + 15)
    (by have h : (i 0).val < 16 := (i 0).isLt; show 16 * (i 0).val + 15 < cfg0.N; rw [show cfg0.N = 256 from N_0]; omega)
    (ix3 0 (i 1) (i 2))

/-- That array at an index, against any way of writing the point and the index inside the block. -/
theorem outG_apply (c : Dev nD) (i : S16x8x128.Idx) (n : ℕ) (hn : n < cfg0.N) (y : S1x8x128.Idx)
    (h0 : 16 * (i 0).val + 15 = n) (h1 : (i 1).val = (y 1).val) (h2 : (i 2).val = (y 2).val) :
    outG m c i = outsAt m c n hn y := by
  subst h0
  show outsAt m c _ _ (ix3 0 (i 1) (i 2)) = outsAt m c _ _ y
  congr 1
  funext d
  apply Fin.ext
  match d with
  | ⟨0, _⟩ => show (0 : Fin 1).val = (y 0).val; have : (y 0).val < 1 := (y 0).isLt; simp; omega
  | ⟨1, _⟩ => exact h1
  | ⟨2, _⟩ => exact h2

/-- What a writing-back point writes is its block of that array: the point is the last of its batch. -/
theorem flushed3_eq (c : Dev nD) (t : Fin cfg0.N) (hf : (cfg0.win 3).flush t = true) :
    (dats m 0 c).flushed 3 t = ((cfg0.win 3).blk t).view.read (Elt F) (outG m c) := by
  have hN : t.val < 256 := lt_of_lt_of_eq t.isLt (show cfg0.N = 256 from N_0)
  have h15 : t.val % 16 = 15 := (flush0_3 t).mp hf
  obtain ⟨-, -, -, -, -, -, -, -, -, e0, e1, e2⟩ := idx_facts t
  show (cfg0.win 3).cut (grid0.coords t) ((dats m 0 c).after 3 t) = _
  rw [after3]
  funext y
  rw [View.read_apply]
  refine (outG_apply m c (((cfg0.win 3).blk t).view.emb y) t.val t.isLt y ?_ ?_ ?_).symm
  · show 16 * (win0_3.index t 0 * 1 + 1 * (y 0).val) + 15 = t.val
    have : (y 0).val < 1 := (y 0).isLt
    rw [e0]; omega
  · show win0_3.index t 1 * 8 + 1 * (y 1).val = (y 1).val
    rw [e1]; omega
  · show win0_3.index t 2 * 128 + 1 * (y 2).val = (y 2).val
    rw [e2]; omega

/-- An index of the partial sums' array is in point `t`'s block iff each coordinate is in the block's range on its axis. -/
theorem mem_blk3 (t : Fin cfg0.N) (i : S16x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v18).slice (win0_3.rect t)).set ↔ _
  rw [View.set_slice_whole, Rect.mem_set_unit]
  exact Iff.rfl

/-- Every index of the partial sums' array is in the block of a writing-back point: the last point of its batch. -/
theorem cover3 (i : S16x8x128.Idx) : ∃ t : Fin cfg0.N, (cfg0.win 3).flush t = true ∧ i ∈ ((cfg0.win 3).blk t).view.set := by
  have h0 : (i 0).val < 16 := (i 0).isLt
  have h1 : (i 1).val < 8 := (i 1).isLt
  have h2 : (i 2).val < 128 := (i 2).isLt
  have hlt : 16 * (i 0).val + 15 < cfg0.N := by rw [show cfg0.N = 256 from N_0]; omega
  refine ⟨⟨16 * (i 0).val + 15, hlt⟩, (flush0_3 _).mpr (by show (16 * (i 0).val + 15) % 16 = 15; omega), ?_⟩
  obtain ⟨-, -, -, -, -, -, -, -, -, e0, e1, e2⟩ := idx_facts ⟨16 * (i 0).val + 15, hlt⟩
  have e0' : win0_3.index ⟨16 * (i 0).val + 15, hlt⟩ 0 = (i 0).val := by rw [e0]; show (16 * (i 0).val + 15) / 16 = (i 0).val; omega
  rw [mem_blk3]
  intro a
  match a with
  | ⟨0, _⟩ => show win0_3.index ⟨16 * (i 0).val + 15, hlt⟩ 0 * 1 ≤ (i 0).val ∧ (i 0).val < win0_3.index ⟨16 * (i 0).val + 15, hlt⟩ 0 * 1 + 1; rw [e0']; omega
  | ⟨1, _⟩ => show win0_3.index ⟨16 * (i 0).val + 15, hlt⟩ 1 * 8 ≤ (i 1).val ∧ (i 1).val < win0_3.index ⟨16 * (i 0).val + 15, hlt⟩ 1 * 8 + 8; rw [e1]; omega
  | ⟨2, _⟩ => show win0_3.index ⟨16 * (i 0).val + 15, hlt⟩ 2 * 128 ≤ (i 2).val ∧ (i 2).val < win0_3.index ⟨16 * (i 0).val + 15, hlt⟩ 2 * 128 + 128; rw [e2]; omega

/-- The partial sums' array after all 256 points is that array. -/
theorem arrAt3_eq (c : Dev nD) : (dats m 0 c).arrAt 3 cfg0.N = outG m c :=
  (dats m 0 c).arrAt_eq_of_cover 3 (outG m c) (flushed3_eq m c) cover3

/-- The partial sums' array after all 256 points, element by element: batch `b`'s block was written back once, after
    point `16 b + 15`, with what the body left there. -/
theorem out_final (c : Dev nD) (b : Fin 16) (r : Fin 8) (l : Fin 128) :
    (dats m 0 c).arrAt 3 cfg0.N (ix3 b r l)
      = outsAt m c (16 * b.val + 15) (by have := b.isLt; show 16 * b.val + 15 < cfg0.N; rw [show cfg0.N = 256 from N_0]; omega) (ix3 0 r l) := by
  rw [arrAt3_eq]
  exact outG_apply m c (ix3 b r l) _ _ (ix3 0 r l) rfl rfl rfl

end Cert.KernelIdeal.Hand

end
-- ==== Proof.KShare.lean ====
/-
  How the three arrays behind the region's four windows are divided among the windows.

  The scores and the output array are each read or written through one window, which therefore holds the whole
  array. The membership array is read through two windows, one taking the rows of the point's row tile and the
  other those of its column tile; each holds the array at half of its share, and the two halves together are the
  whole. Both directions are needed: entering the region splits the array, leaving it puts it back.
-/
import proofs.«167607_j446676599061_2_alg».proof.Proof.KDefs
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-- The buffers behind the windows' arrays, each whole at the contents `Vv`, are the pipeline's arrays at the
    contents `Fw` when each window's contents are its buffer's: the scores and the output whole, the membership
    array as its two halves. -/
theorem arrays_eq_arrBufs {c : Dev nD} (dat : Dat τ (Elt F) Unit ℕ (UR sig nD τ) ℕ cfg0 c)
    (hq0 : dat.q 0 = fullShare) (hq1 : dat.q 1 = fullShare.left) (hq2 : dat.q 2 = fullShare.right)
    (Vv : (b : Ref sig .tc) → Buf (Elt F) ((c.tc : Thread nD τ).loc b))
    (Fw : (w : Fin cfg0.W) → Buf (Elt F) ((cfg0.win w).arr.view.loc (c.tc : Thread nD τ)))
    (hF : ∀ w, Fw w = Vv (Pipeline.arrRef spec0 w)) :
    (dat.arrays Fw : sProp 𝕄) = Pipeline.arrBufs spec0 c Vv := by
  have s0 : dat.share 0 = fullShare := by unfold Dat.share; rw [if_neg (by decide)]; exact hq0
  have s1 : dat.share 1 = fullShare.left := by unfold Dat.share; rw [if_neg (by decide)]; exact hq1
  have s2 : dat.share 2 = fullShare.right := by unfold Dat.share; rw [if_neg (by decide)]; exact hq2
  have s3 : dat.share 3 = fullShare := by unfold Dat.share; rw [if_pos (by decide)]
  unfold Dat.arrays Pipeline.arrBufs
  rw [bigSep_W0,
    show bigSep (Finset.univ.image (Pipeline.arrRef spec0)) (fun b => (((c.tc : Thread nD τ).loc b) ↦{fullShare} Vv b : sProp 𝕄))
        = iprop((((c.tc : Thread nD τ).loc main_arg0) ↦{fullShare} Vv main_arg0) ∗ (((c.tc : Thread nD τ).loc main_v17) ↦{fullShare} Vv main_v17)
            ∗ (((c.tc : Thread nD τ).loc main_v18) ↦{fullShare} Vv main_v18))
      from bigSep_eq_bigSepL_of_eq [main_arg0, main_v17, main_v18] (by decide) (by decide) _]
  rw [s0, s1, s2, s3, (arr_whole0 0).set_eq_univ, (arr_whole0 1).set_eq_univ, (arr_whole0 3).set_eq_univ,
    hF 0, hF 1, hF 2, hF 3]
  refine equiv_iff.mp ⟨?_, ?_⟩
  · show (_ : sProp 𝕄) ⊢ _
    iintro ⟨H0, Hl, Hr, H18⟩
    isplitl [H0]; · iexact H0
    isplitr [H18]
    · iapply (pointsTo_share (PosShare.mem_left_op_right fullShare)).2
      isplitl [Hl]; · iexact Hl
      iexact Hr
    · iexact H18
  · show (_ : sProp 𝕄) ⊢ _
    iintro ⟨H0, H17, H18⟩
    ihave H := (pointsTo_share (PosShare.mem_left_op_right fullShare)).1 $$ H17
    icases H with ⟨Hl, Hr⟩
    isplitl [H0]; · iexact H0
    isplitl [Hl]; · iexact Hl
    isplitl [Hr]; · iexact Hr
    iexact H18

end Cert.KernelIdeal.Hand

end
-- ==== Proof.KLaunch.lean ====
/-
  The run of the whole program around its one kernel region, from a body obligation.

  The program is: nineteen whole-array operations that build the membership array; the kernel region, a grid of 256
  points; four whole-array operations that sum the region's output and divide by the number of entries. The region
  reads the membership array through TWO windows (rows of the point's row tile and rows of its column tile), so that
  array's ownership is divided between them, half each, while the scores and the output belong to one window each.
  Given proof data whose arrays are the region-entry contents and whose body obligation holds, every weakly fair
  execution terminates with the result at the closing operations' value of what the region wrote, and with the two
  arguments as they were.
-/
import proofs.«167607_j446676599061_2_alg».proof.Proof.KDefs
import proofs.«167607_j446676599061_2_alg».proof.Proof.KShare
import Idealize.ShloMosaic.Lib.Pipeline.Frame
import Idealize.ShloMosaic.Lib.Pipeline.FrameSuffix
import Idealize.ShloMosaic.Lib.StableHlo.Run

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The closing operations' value of the region's output array: its sum from zero, divided by 2^26. -/
def tailVal (o : (⟨S16x8x128, .f32⟩ : BufTy).Contents (Elt F)) : (⟨S_, .f32⟩ : BufTy).Contents (Elt F) :=
  Host.divf (Host.reduceAdd o (constant S_ .f32 0x00000000#32) reducesTo_S16x8x128_S_d0_1_2 h_S_) (constant S_ .f32 0x4C800000#32)

/-- @main is the opening operations, the region, the closing operations. -/
theorem hmain : Pipeline.HMainK (Ix := Unit) (Name := ℕ) (U := UR sig nD τ) (Lvl := ℕ) cfgs 0 defs₀ Variants.none m (main (F := F))
    (fun c b => V0 m c b) (fun _ => Pipeline.chain ([hostOps1 (F := F)].map StableHlo.seq)) :=
  Pipeline.hmain_around cfgs 0 defs₀ Variants.none m main [hostOps0] [hostOps1] hostOps0_sub
    (show List.Forall (fun op : HloOp τ sig (Elt F) => op.fresh = ∅) hostOps0 from
      ⟨rfl, rfl, rfl, rfl, rfl, rfl, rfl, rfl, rfl, rfl, rfl, rfl, rfl, rfl, rfl, rfl, rfl, rfl, rfl⟩)
    (fun c => (main_chain c).trans rfl)

/-- Core `c`'s buffers when the region is left: as it was entered, but the output array at `o`. -/
def Vmid (c : Dev nD) (o : (⟨S16x8x128, .f32⟩ : BufTy).Contents (Elt F)) : Valuation τ sig (Elt F) :=
  open Classical in Function.update (V0 m c) (Proc.devRef .tc main_v18) o

/-- And after the four closing operations. -/
def Vend (c : Dev nD) (o : (⟨S16x8x128, .f32⟩ : BufTy).Contents (Elt F)) : Valuation τ sig (Elt F) :=
  StableHlo.after (List.flatten [hostOps1 (F := F)]) (Vmid m c o)

theorem Vmid_out (c : Dev nD) (o) : Vmid m c o (Proc.devRef .tc main_v18) = o := by
  unfold Vmid; exact Function.update_self _ _ _

theorem Vmid_of_ne (c : Dev nD) (o) (b : Ref sig .tc) (hb : b ≠ main_v18) : Vmid m c o (Proc.devRef .tc b) = V0 m c (Proc.devRef .tc b) := by
  unfold Vmid; exact Function.update_of_ne (fun e => hb (Proc.devRef_injective _ e)) _ _

/-- The closing operations write the result as `tailVal` of the output array, -/
theorem Vend_result (c : Dev nD) (o) : Vend m c o (Proc.devRef .tc main_v20) = tailVal o := by
  unfold Vend
  simp only [hostOps1, List.flatten_cons, List.flatten_nil, List.append_nil]
  after_results
  rw [Vmid_out]
  rfl

/-- they leave the arguments and the windows' arrays alone: each of the four writes a buffer of its own. -/
theorem hostOps1_writes : (hostOps1 : List (HloOp τ sig (Elt F))).Forall fun op =>
    op.writes ⊆ (([main_cst, main_v19, main_cst_0, main_v20] : List (Ref sig .tc)).map (Proc.devRef (τ := τ) .tc)).toFinset := by
  simp only [List.Forall]
  exact (by simp only [StableHlo.nullary_writes, StableHlo.binary_writes, Finset.singleton_subset_iff, List.mem_toFinset]; exact ⟨List.mem_map_of_mem (by decide), List.mem_map_of_mem (by decide), List.mem_map_of_mem (by decide), List.mem_map_of_mem (by decide)⟩)

theorem Vend_of_keep (c : Dev nD) (o) (b : Ref sig .tc)
    (hb : b ∉ ([main_cst, main_v19, main_cst_0, main_v20] : List (Ref sig .tc))) :
    Vend m c o (Proc.devRef .tc b) = Vmid m c o (Proc.devRef .tc b) := by
  unfold Vend
  rw [show List.flatten [hostOps1 (F := F)] = hostOps1 from by simp only [List.flatten_cons, List.flatten_nil, List.append_nil]]
  exact StableHlo.after_of_writes_sub hostOps1 _ hostOps1_writes hb

/-- The opening operations leave the two arguments alone: each of the nineteen writes a buffer of its own. -/
theorem hostOps0_writes : (hostOps0 : List (HloOp τ sig (Elt F))).Forall fun op =>
    op.writes ⊆ (([main_v0, main_c, main_v1, main_v2, main_v3, main_v4, main_v5, main_v6, main_v7, main_v8, main_v9, main_v10, main_v11, main_v12, main_v13, main_v14, main_v15, main_v16, main_v17] : List (Ref sig .tc)).map (Proc.devRef (τ := τ) .tc)).toFinset := by
  simp only [List.Forall]
  exact (by simp only [StableHlo.nullary_writes, StableHlo.unary_writes, StableHlo.binary_writes, Finset.singleton_subset_iff, List.mem_toFinset]; refine ⟨?_, ?_, ?_, ?_, ?_, ?_, ?_, ?_, ?_, ?_, ?_, ?_, ?_, ?_, ?_, ?_, ?_, ?_, ?_⟩ <;> exact List.mem_map_of_mem (by decide))

theorem V0_of_keep (c : Dev nD) (b : Ref sig .tc)
    (hb : b ∉ ([main_v0, main_c, main_v1, main_v2, main_v3, main_v4, main_v5, main_v6, main_v7, main_v8, main_v9, main_v10, main_v11, main_v12, main_v13, main_v14, main_v15, main_v16, main_v17] : List (Ref sig .tc))) :
    V0 m c (Proc.devRef .tc b) = m (c, Proc.devRef .tc b) := by
  show StableHlo.after (List.flatten [hostOps0 (F := F)]) (fun b => m (c, b)) (Proc.devRef .tc b) = _
  rw [show List.flatten [hostOps0 (F := F)] = hostOps0 from by simp only [List.flatten_cons, List.flatten_nil, List.append_nil]]
  exact StableHlo.after_of_writes_sub hostOps0 _ hostOps0_writes hb

theorem hostOps1_fresh : (hostOps1 : List (HloOp τ sig (Elt F))).Forall fun op => op.fresh = ∅ := ⟨rfl, rfl, rfl, rfl⟩

/-- Outside the output array the buffers are, when the region is left, what they were when it was entered. -/
theorem rest_mid (c : Dev nD) (o) :
    (Pipeline.unscopedRest (Ix := Unit) (Name := ℕ) (U := UR sig nD τ) (Lvl := ℕ) spec0 c (fun b => V0 m c (Proc.devRef .tc b)) : sProp 𝕄)
      = Pipeline.unscopedRest spec0 c (fun b => Vmid m c o (Proc.devRef .tc b)) := by
  unfold Pipeline.unscopedRest
  exact bigSep_congr fun b hb => by
    dsimp only
    rw [Vmid_of_ne m c o b (fun e => (Finset.mem_sdiff.mp hb).2 (e ▸ Finset.mem_image.mpr ⟨3, Finset.mem_univ _, rfl⟩))]

/-- All of a core's unscoped buffers at a valuation are the buffers behind the windows' arrays and the rest. -/
theorem bufs_split (c : Dev nD) (Vv : (b : Ref sig .tc) → Buf (Elt F) ((c.tc : Thread nD τ).loc b)) :
    (unscopedBufs (Ix := Unit) (Name := ℕ) (U := UR sig nD τ) (Lvl := ℕ) c Vv : sProp 𝕄)
      = iprop(Pipeline.arrBufs spec0 c Vv ∗ Pipeline.unscopedRest spec0 c Vv) :=
  Pipeline.unscopedBufs_split₀ cfgs 0 winFacts₀0.arr_unscoped c Vv

/-- The result buffer and the second argument bypass the region: neither is scoped, neither is a window's array. -/
theorem mem_rest_v20 : main_v20 ∈ Pipeline.restRefsP sig Pipeline.Prefetch.none spec0 :=
  Finset.mem_sdiff.mpr ⟨Pipeline.mem_restRefs_of main_v20 rfl (by decide), fun h => by
    obtain ⟨k, -, -⟩ := Finset.mem_image.mp h; exact k.elim0⟩
theorem mem_rest_arg1 : main_arg1 ∈ Pipeline.restRefsP sig Pipeline.Prefetch.none spec0 :=
  Finset.mem_sdiff.mpr ⟨Pipeline.mem_restRefs_of main_arg1 rfl (by decide), fun h => by
    obtain ⟨k, -, -⟩ := Finset.mem_image.mp h; exact k.elim0⟩

-- a rule stated for any thread, applied at the TensorCore thread, unifies only when unification may unfold plain
-- definitions in a metavariable's type
set_option backward.isDefEq.respectTransparency.types false in
set_option maxHeartbeats 1000000 in
/-- THE CLOSING OPERATIONS. Holding every unscoped buffer at the contents the region left, the four operations run
    and leave every unscoped buffer at their value of those contents. -/
theorem tail_run (c : Dev nD) (o : (⟨S16x8x128, .f32⟩ : BufTy).Contents (Elt F)) (Q' : PUnit → sProp 𝕄) :
    iprop(((StableHlo.held (c.tc : Thread nD τ) (Pipeline.ucRefs τ sig) (Vend m c o) : sProp 𝕄) -∗ Q' ⟨⟩)
        ∗ boundary (c.tc : Thread nD τ) ∗ (StableHlo.held (c.tc : Thread nD τ) (Pipeline.ucRefs τ sig) (Vmid m c o) : sProp 𝕄))
      ⊢ wp frame (wpE (Pipeline.defs (fun p => (cfgs p).toPCfg) (defs₀ (F := F))) (Variants.lift Variants.none) (c.tc : Thread nD τ) none) Set.univ
          (Pipeline.chain ([hostOps1 (F := F)].map StableHlo.seq)) Q' := by
  unfold Vend
  rw [← List.append_nil (List.map StableHlo.seq [hostOps1 (F := F)])]
  iintro ⟨Hk, Hb⟩
  iapply (Pipeline.wp_seqs_then (fun p => (cfgs p).toPCfg) defs₀ Variants.none c (Pipeline.ucRefs τ sig) [] [hostOps1 (F := F)]
    (fun ops ho op h => Pipeline.sub_ucRefs op (List.forall_iff_forall_mem.mp (List.mem_singleton.mp ho ▸ hostOps1_sub) op h))
    (fun ops ho op h => List.forall_iff_forall_mem.mp (List.mem_singleton.mp ho ▸ hostOps1_fresh) op h)
    (Vmid m c o)) $$ Hb
  iintro Hb
  rw [Pipeline.chain_nil, wp_pure]
  imodintro
  iapply Hk
  icases Hb with ⟨-, H⟩
  iexact H

-- unification of the launch theorem's implicit arguments unfolds plain definitions in a metavariable's type
set_option backward.isDefEq.respectTransparency.types false in
set_option maxHeartbeats 2000000 in
/-- THE RUN. For proof data whose arrays are the region-entry contents, with the membership array's two windows at
    half its share each, the class's invariant, nothing owed and the body obligation: every weakly fair execution
    of the program terminates, the result buffer holding the closing operations' value of the output array the
    pipeline computes, and both arguments as they were. -/
theorem run_main_of
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare) (hq1 : ∀ c, (dats 0 c).q 1 = fullShare.left) (hq2 : ∀ c, (dats 0 c).q 2 = fullShare.right)
    (hΦ : ∀ c t, (dats 0 c).Φ t = Pipeline.ΦA spec0 c)
    (howed : ∀ c t, (dats 0 c).owed t = 0)
    (hbody : ∀ c, BodyObligationLoose (dats 0 c) (defs₀ (F := F)) Variants.none () Set.univ) :
    θ_run defs (onTc (τ := τ) (main (F := F))) ⟨m, fun _ => 0, ρ⟩ (fun r => ∀ c : Dev nD,
      r.2.mem ((c.tc : Thread nD τ).loc main_v20) = tailVal ((dats 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun p => (cfgs p).toPCfg) (fun p => (cfgs p).toPCfg_adm) dats () cellOf_inj (0 : Fin 1) winFacts₀0
    (Pipeline.OwnSemFacts.none _) (Pipeline.PreFacts.none _) emb₁ defs₀ Variants.none m ρ main
    (fun _ => Pipeline.chain ([hostOps1 (F := F)].map StableHlo.seq)) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := fun c b => V0 m c (Proc.devRef .tc b)) (hmain := hmain m)
    (hsplit := fun c => Entails.of_eq
      (arrays_eq_arrBufs (dats 0 c) (hq0 c) (hq1 c) (hq2 c) (fun b => V0 m c (Proc.devRef .tc b)) _ (fun w => hA c w)).symm)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (fun b => V0 m c (Proc.devRef .tc b)))
    (Z' := fun c => Pipeline.unscopedRestP (Ix := Unit) (Name := ℕ) (U := UR sig nD τ) (Lvl := ℕ) Pipeline.Prefetch.none spec0 c (fun b => Vend m c ((dats 0 c).arrAt 3 cfg0.N) (Proc.devRef .tc b)))
    (hX := fun c => by
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr]; · iexact Hr
      iexact Hp)
    (hout := fun c => by
      rw [hΦ, Pipeline.ownSems0_none]; unfold Pipeline.ΦA
      iintro ⟨Hr, Hp⟩
      isplitl [Hp]; · iexact Hp
      isplitr; · iempintro
      iexact Hr)
    (htail := fun c Q' => by
      have hmid : ∀ w, (dats 0 c).arrAt w cfg0.N = Vmid m c ((dats 0 c).arrAt 3 cfg0.N) (Proc.devRef .tc (Pipeline.arrRef spec0 w)) := fun w => by
        match w with
        | ⟨0, _⟩ => exact ((dats 0 c).arrAt_in 0 rfl _).trans ((hA c 0).trans (Vmid_of_ne m c _ main_arg0 (by decide)).symm)
        | ⟨1, _⟩ => exact ((dats 0 c).arrAt_in 1 rfl _).trans ((hA c 1).trans (Vmid_of_ne m c _ main_v17 (by decide)).symm)
        | ⟨2, _⟩ => exact ((dats 0 c).arrAt_in 2 rfl _).trans ((hA c 2).trans (Vmid_of_ne m c _ main_v17 (by decide)).symm)
        | ⟨3, _⟩ => exact (Vmid_out m c _).symm
      have hend : ∀ w, (dats 0 c).arrAt w cfg0.N = Vend m c ((dats 0 c).arrAt 3 cfg0.N) (Proc.devRef .tc (Pipeline.arrRef spec0 w)) := fun w => by
        match w with
        | ⟨0, _⟩ => exact (hmid 0).trans (Vend_of_keep m c _ main_arg0 (by decide)).symm
        | ⟨1, _⟩ => exact (hmid 1).trans (Vend_of_keep m c _ main_v17 (by decide)).symm
        | ⟨2, _⟩ => exact (hmid 2).trans (Vend_of_keep m c _ main_v17 (by decide)).symm
        | ⟨3, _⟩ => exact (hmid 3).trans (Vend_of_keep m c _ main_v18 (by decide)).symm
      have e1 := arrays_eq_arrBufs (dats 0 c) (hq0 c) (hq1 c) (hq2 c) (fun b => Vmid m c ((dats 0 c).arrAt 3 cfg0.N) (Proc.devRef .tc b))
        (fun w => (dats 0 c).arrAt w cfg0.N) hmid
      have e2 := arrays_eq_arrBufs (dats 0 c) (hq0 c) (hq1 c) (hq2 c) (fun b => Vend m c ((dats 0 c).arrAt 3 cfg0.N) (Proc.devRef .tc b))
        (fun w => (dats 0 c).arrAt w cfg0.N) hend
      show iprop((iprop((dats 0 c).arrays (fun w => (dats 0 c).arrAt w cfg0.N)
              ∗ Pipeline.unscopedRestP Pipeline.Prefetch.none spec0 c (fun b => Vend m c ((dats 0 c).arrAt 3 cfg0.N) (Proc.devRef .tc b))) -∗ Q' ⟨⟩)
          ∗ boundary (c.tc : Thread nD τ) ∗ (dats 0 c).arrays (fun w => (dats 0 c).arrAt w cfg0.N)
          ∗ Pipeline.unscopedRestP Pipeline.Prefetch.none spec0 c (fun b => V0 m c (Proc.devRef .tc b))) ⊢ _
      rw [Pipeline.unscopedRestP_none, Pipeline.unscopedRestP_none, rest_mid m c ((dats 0 c).arrAt 3 cfg0.N)]
      nth_rewrite 2 [e1]
      rw [e2, ← bufs_split, ← bufs_split, Pipeline.unscopedBufs_held, Pipeline.unscopedBufs_held]
      exact tail_run m c ((dats 0 c).arrAt 3 cfg0.N) Q')
    (QY := fun c s => ∀ b ∈ Pipeline.restRefsP sig Pipeline.Prefetch.none spec0, s.mem ((c.tc : Thread nD τ).loc b) = Vend m c ((dats 0 c).arrAt 3 cfg0.N) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => Vend m c ((dats 0 c).arrAt 3 cfg0.N) (Proc.devRef .tc b)) s')
      isplitl [HU] <;> iassumption)
    (hQ := fun s h c => by
      refine ⟨((h c).2.2 main_v20 mem_rest_v20).trans (Vend_result m c _), ?_, ?_⟩
      · exact ((h c).1 0).trans (((dats 0 c).arrAt_in 0 rfl _).trans ((hA c 0).trans (V0_of_keep m c main_arg0 (by decide))))
      · exact ((h c).2.2 main_arg1 mem_rest_arg1).trans ((Vend_of_keep m c _ main_arg1 (by decide)).trans
          ((Vmid_of_ne m c _ main_arg1 (by decide)).trans (V0_of_keep m c main_arg1 (by decide)))))

end Cert.KernelIdeal.Hand

end
-- ==== Proof.RefIsSpec.lean ====
/-
  The reference program's result is the specification's mean squared difference.

  The reference builds the 0/1 membership array (position p lies in cluster k of batch b), contracts it
  with itself over the sixteen clusters to count the clusters holding both positions of a pair, compares
  that count with zero, subtracts the resulting 0/1 indicator from the score, squares, sums every entry
  from zero and divides by the number of entries. Read one entry at a time, over the extended reals, that
  is the specification's `mean` at threshold 0, with the membership array as the cluster indicator.

  The steps: a membership entry is 0 or 1; a sum over a rank-3 index set is the triple sum over its
  coordinates; each squared entry is the specification's `sqErr`; hence the result is `mean 0`; and the
  reference's run, which ends with its result at the composed term, ends with it at `mean 0`.
-/
import proofs.«167607_j446676599061_2_alg».proof.Proof.RefReadP
import proofs.«167607_j446676599061_2_alg».proof.Proof.Spec
import Idealize.ShloMosaic.Lib.ValueIdx
import Idealize.ShloMosaic.PureOps.Ideal.Laws

noncomputable section

open scoped BigOperators

namespace Cert.ReferenceIdeal.RefSpec

open Idealize.ShloMosaic Idealize.ShloMosaic.ValueIdx Cert.ReferenceIdeal Cert.ReferenceIdeal.ReadP Cert.Spec
open Idealize.SL.Sem

/-- A decided condition's bit, read as a natural number and then as an extended real, is its indicator. -/
private theorem ind_ofBool_toNat (p : Bool) : (((BitVec.ofBool p).toNat : ℝ) : EReal) = Cert.Spec.ind p := by
  cases p <;> simp [Cert.Spec.ind]

/-- A membership entry is the conversion of a one-bit word, so it is 0 or 1. -/
theorem memb_zero_or_one (x1 : (⟨S16x16, .i32⟩ : BufTy).Contents (Elt Ideal)) (i : S16x16x2048.Idx) :
    val_main_v17 (F := Ideal) x1 i = 0 ∨ val_main_v17 (F := Ideal) x1 i = 1 := by
  rw [val_main_v17_apply]
  show (((val_main_v16 (F := Ideal) x1 i).toNat : ℝ) : EReal) = 0 ∨ (((val_main_v16 (F := Ideal) x1 i).toNat : ℝ) : EReal) = 1
  rcases BitVec.eq_zero_or_eq_one (val_main_v16 (F := Ideal) x1 i) with h | h
  · left; rw [h]; simp
  · right; rw [h]; simp

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {A : Type} [AddCommMonoid A] {n0 n1 n2 : Nat} (f : (⟨3, ![n0, n1, n2]⟩ : Shape).Idx → A) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The contraction at (b, p, q) is the number of clusters of batch b holding both p and q. -/
private theorem count_entry (x1 : (⟨S16x16, .i32⟩ : BufTy).Contents (Elt Ideal)) (b : Fin 16) (p q : Fin 2048) :
    val_main_v18 (F := Ideal) x1 (ix3 b p q)
      = Cert.Spec.cov (fun b k p => val_main_v17 (F := Ideal) x1 (ix3 b k p)) b p q := by
  rw [val_main_v18_apply]
  unfold Cert.Spec.cov
  refine Finset.sum_congr rfl fun k _ => ?_
  have hl : lidx_main_v18 (ix3 b p q) k = ix3 b k p :=
    funext fun a => Fin.ext (by match a with | ⟨0, _⟩ => rfl | ⟨1, _⟩ => rfl | ⟨2, _⟩ => rfl)
  have hr : ridx_main_v18 (ix3 b p q) k = ix3 b k q :=
    funext fun a => Fin.ext (by match a with | ⟨0, _⟩ => rfl | ⟨1, _⟩ => rfl | ⟨2, _⟩ => rfl)
  rw [hl, hr]

/-- The converted comparison at (b, p, q) is the indicator that the count there is positive. -/
private theorem ind_entry (x1 : (⟨S16x16, .i32⟩ : BufTy).Contents (Elt Ideal)) (b : Fin 16) (p q : Fin 2048) :
    val_main_v21 (F := Ideal) x1 (ix3 b p q)
      = Cert.Spec.ind (decide ((0 : EReal) < Cert.Spec.cov (fun b k p => val_main_v17 (F := Ideal) x1 (ix3 b k p)) b p q)) := by
  rw [val_main_v21_apply, val_main_v20_apply, val_main_v19_apply, val_main_cst_apply, Ideal.cmpf_def, Ideal.ofBits_def,
    Ideal.ofBits_zero_f32, count_entry]
  exact ind_ofBool_toNat _

/-- The squared entry at (b, p, q) is the specification's squared difference there, at threshold 0. -/
private theorem sq_entry (x0 : (⟨S16x2048x2048, .f32⟩ : BufTy).Contents (Elt Ideal))
    (x1 : (⟨S16x16, .i32⟩ : BufTy).Contents (Elt Ideal)) (b : Fin 16) (p q : Fin 2048) :
    val_main_v23 (F := Ideal) x0 x1 (ix3 b p q)
      = Cert.Spec.sqErr 0 (fun b p q => x0 (ix3 b p q)) (fun b k p => val_main_v17 (F := Ideal) x1 (ix3 b k p)) b p q := by
  rw [val_main_v23_apply, val_main_v22_apply, Ideal.mulf_def, Ideal.subf_def, ind_entry]
  rfl

/-- The reference's result is the specification's mean at threshold 0. -/
theorem ref_result (x0 : (⟨S16x2048x2048, .f32⟩ : BufTy).Contents (Elt Ideal))
    (x1 : (⟨S16x16, .i32⟩ : BufTy).Contents (Elt Ideal)) (i : S_.Idx) :
    val_main_v25 (F := Ideal) x0 x1 i
      = Cert.Spec.mean 0 (fun b p q => x0 (ix3 b p q)) (fun b k p => val_main_v17 (F := Ideal) x1 (ix3 b k p)) := by
  rw [val_main_v25_apply, val_main_v24_apply, val_main_cst_0_apply, val_main_cst_1_apply, Ideal.hostDivf_def,
    Ideal.ofBits_def, Ideal.ofBits_def, Ideal.ofBits_zero_f32, sum_idx3]
  unfold Cert.Spec.mean Cert.Spec.total
  refine congrArg (fun t => Ideal.div (0 + t) (Ideal.ofBits .f32 0x4C800000#32)) ?_
  exact Finset.sum_congr rfl fun b _ => Finset.sum_congr rfl fun p _ => Finset.sum_congr rfl fun q _ =>
    sq_entry x0 x1 b p q

/-- Every weakly fair execution of the reference ends with its result at the specification's mean at threshold 0,
    taken of the two arguments as they stood at the start, and with the two arguments unchanged. -/
theorem frame_and_value (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v25)
          = (fun _ => Cert.Spec.mean 0 (fun b p q => m ((c.tc : Thread nD τ).loc main_arg0) (ix3 b p q))
              (fun b k p => val_main_v17 (F := Ideal) (m ((c.tc : Thread nD τ).loc main_arg1)) (ix3 b k p)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by rw [val_main_v25_eq]; funext i; exact ref_result _ _ i), (h c).2⟩)
    (RunP.run (F := Ideal) m ρ)

end Cert.ReferenceIdeal.RefSpec

end
-- ==== Proof.KValue.lean ====
/-
  What the kernel program computes, as the specification's mean with threshold one half.

  Point t = 16 b + 4 i + j of the grid handles batch b, row tile i and column tile j: its tile sum is the sum, over
  the 512 × 512 entries of that tile, of the squared difference between the score and the indicator that the
  count of common clusters exceeds one half. The output block of batch b is reset at the batch's first point and
  receives each point's tile sum at its entry (0, 0) and zero elsewhere, so after the batch's sixteen points the
  entry (0, 0) holds the sum of the sixteen tile sums and every other entry holds zero. Summing the whole output
  array therefore sums all 256 tile sums, which, the tiles partitioning the pairs of positions, is the sum over
  every batch and every pair of positions; the closing division makes it the mean.
-/
import proofs.«167607_j446676599061_2_alg».proof.Proof.KPieces
import proofs.«167607_j446676599061_2_alg».proof.Proof.KPayload
import proofs.«167607_j446676599061_2_alg».proof.Proof.KBlocks
import proofs.«167607_j446676599061_2_alg».proof.Proof.KLaunch
import proofs.«167607_j446676599061_2_alg».proof.Proof.SpecLaws
import proofs.«167607_j446676599061_2_alg».proof.Proof.RefIsSpec

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (m : (ℓ : Loc nD τ sig) → Buf (Elt Ideal) ℓ)

/-- The grid has 256 points. -/
theorem cfgN : cfg0.N = 256 := N_0

/-- The scores as the region finds them, by coordinates. -/
def xK (c : Dev nD) : Fin 16 → Fin 2048 → Fin 2048 → EReal :=
  fun b p q => (V m c main_arg0 : S16x2048x2048.Idx → EReal) (ix3 b p q)

/-- The membership array as the region finds it, by coordinates. -/
def MK (c : Dev nD) : Fin 16 → Fin 16 → Fin 2048 → EReal :=
  fun b k p => (V m c main_v17 : S16x16x2048.Idx → EReal) (ix3 b k p)

/-- The tile sum of grid point `t`. -/
def tileAt (c : Dev nD) (t : Fin cfg0.N) : EReal := tileSum (iblk m c 1 t) (iblk m c 2 t) (iblk m c 0 t)

/-- The same by the point's number, zero past the grid. -/
def tileAtN (c : Dev nD) (n : ℕ) : EReal := if h : n < cfg0.N then tileAt m c ⟨n, h⟩ else 0

/-- A point's tile sum is the sum of the squared differences over its tile. -/
theorem tileAt_eq (c : Dev nD) (t : Fin cfg0.N) :
    tileAt m c t = ∑ a : Fin 512, ∑ a' : Fin 512, sqErr ((1/2 : ℝ) : EReal) (xK m c) (MK m c)
      ⟨t.val / 16, by have := lt_of_lt_of_eq t.isLt cfgN; omega⟩
      ⟨512 * ((t.val / 4) % 4) + a.val, by have := a.isLt; omega⟩
      ⟨512 * (t.val % 4) + a'.val, by have := a'.isLt; omega⟩ := by
  unfold tileAt tileSum sqErr cov xK MK
  simp only [zero_add, iblk0_apply, iblk1_apply, iblk2_apply]

/-- THE ACCUMULATION. After the point number `16 b + s` of batch `b` the output block holds, at entry (0, 0), the sum
    of the batch's tile sums up to that point, and zero at every other entry: the batch's first point stores zero
    plus its tile sum, every later one adds its own. -/
theorem outsAt_acc (c : Dev nD) (b : Fin 16) : ∀ (s : ℕ) (hs : s < 16) (r : Fin 8) (l : Fin 128),
    outsAt m c (16 * b.val + s) (by have := b.isLt; rw [cfgN]; omega) (ix3 0 r l)
      = if r.val = 0 ∧ l.val = 0 then ∑ s' ∈ Finset.range (s + 1), tileAtN m c (16 * b.val + s') else 0 := by
  intro s
  induction s with
  | zero =>
    intro hs r l
    have hN : 16 * b.val < cfg0.N := by have := b.isLt; rw [cfgN]; omega
    have h0 := outsAt_first m c ⟨16 * b.val, hN⟩ (by show (16 * b.val) % 16 = 0; omega)
    rw [show outsAt m c (16 * b.val + 0) _ = outsAt m c (16 * b.val) hN from rfl, h0, pay1_apply, pay2_apply, pay3_apply, zero_add,
      Finset.sum_range_one, show tileAtN m c (16 * b.val + 0) = tileAtN m c (16 * b.val) from rfl]
    unfold tileAtN tileAt
    rw [dif_pos hN]
  | succ s ih =>
    intro hs r l
    have hN : 16 * b.val + (s + 1) < cfg0.N := by have := b.isLt; rw [cfgN]; omega
    have h1 := outsAt_next m c ⟨16 * b.val + (s + 1), hN⟩ (by show ¬ (16 * b.val + (s + 1)) % 16 = 0; omega)
    rw [h1, pay1_apply, pay3_apply]
    rw [show outsAt m c ((⟨16 * b.val + (s + 1), hN⟩ : Fin cfg0.N).val - 1) _ = outsAt m c (16 * b.val + s) (by omega) from rfl,
      ih (by omega) r l, Finset.sum_range_succ (fun s' => tileAtN m c (16 * b.val + s')) (s + 1)]
    by_cases hrl : r.val = 0 ∧ l.val = 0
    · rw [if_pos hrl, if_pos hrl, if_pos hrl]
      unfold tileAtN tileAt
      rw [dif_pos hN]
    · rw [if_neg hrl, if_neg hrl, if_neg hrl, add_zero]

/-- The output array after the whole grid, as a plain function of the index. -/
def outArr (c : Dev nD) : S16x8x128.Idx → EReal := (dats m 0 c).arrAt 3 cfg0.N

/-- Entry (0, 0) of batch `b`'s block holds the sum of the batch's sixteen tile sums, every other entry zero. -/
theorem out_all (c : Dev nD) (b : Fin 16) (r : Fin 8) (l : Fin 128) :
    outArr m c (ix3 b r l)
      = if r.val = 0 ∧ l.val = 0 then ∑ s ∈ Finset.range 16, tileAtN m c (16 * b.val + s) else 0 := by
  unfold outArr
  rw [out_final]
  exact outsAt_acc m c b 15 (by omega) r l

/-- Sixteen consecutive terms as four groups of four. -/
theorem sum_sixteen {A : Type} [AddCommMonoid A] (f : ℕ → A) :
    ∑ s ∈ Finset.range 16, f s = ∑ ti : Fin 4, ∑ tj : Fin 4, f (4 * ti.val + tj.val) := by
  simp only [Finset.sum_range_succ, Finset.sum_range_zero, Fin.sum_univ_four, zero_add, add_assoc]
  rfl

/-- The tile sum of the point of batch `b`, row tile `ti`, column tile `tj`. -/
theorem tileAtN_eq (c : Dev nD) (b : Fin 16) (ti tj : Fin 4) :
    tileAtN m c (16 * b.val + (4 * ti.val + tj.val))
      = ∑ a : Fin 512, ∑ a' : Fin 512, sqErr ((1/2 : ℝ) : EReal) (xK m c) (MK m c) b
          ⟨512 * ti.val + a.val, by have := ti.isLt; have := a.isLt; omega⟩ ⟨512 * tj.val + a'.val, by have := tj.isLt; have := a'.isLt; omega⟩ := by
  have hN : 16 * b.val + (4 * ti.val + tj.val) < cfg0.N := by have := b.isLt; have := ti.isLt; have := tj.isLt; rw [cfgN]; omega
  unfold tileAtN
  rw [dif_pos hN, tileAt_eq]
  refine Finset.sum_congr rfl fun a _ => Finset.sum_congr rfl fun a' _ => ?_
  have e1 : (⟨(16 * b.val + (4 * ti.val + tj.val)) / 16, by have := b.isLt; have := ti.isLt; have := tj.isLt; omega⟩ : Fin 16) = b :=
    Fin.ext (by have := ti.isLt; have := tj.isLt; show (16 * b.val + (4 * ti.val + tj.val)) / 16 = b.val; omega)
  have e2 : (⟨512 * (((16 * b.val + (4 * ti.val + tj.val)) / 4) % 4) + a.val, by have := a.isLt; omega⟩ : Fin 2048)
      = ⟨512 * ti.val + a.val, by have := ti.isLt; have := a.isLt; omega⟩ :=
    Fin.ext (by have := ti.isLt; have := tj.isLt; show 512 * (((16 * b.val + (4 * ti.val + tj.val)) / 4) % 4) + a.val = 512 * ti.val + a.val; omega)
  have e3 : (⟨512 * ((16 * b.val + (4 * ti.val + tj.val)) % 4) + a'.val, by have := a'.isLt; omega⟩ : Fin 2048)
      = ⟨512 * tj.val + a'.val, by have := tj.isLt; have := a'.isLt; omega⟩ :=
    Fin.ext (by have := ti.isLt; have := tj.isLt; show 512 * ((16 * b.val + (4 * ti.val + tj.val)) % 4) + a'.val = 512 * tj.val + a'.val; omega)
  show sqErr _ _ _ ⟨(16 * b.val + (4 * ti.val + tj.val)) / 16, _⟩ ⟨512 * (((16 * b.val + (4 * ti.val + tj.val)) / 4) % 4) + a.val, _⟩
    ⟨512 * ((16 * b.val + (4 * ti.val + tj.val)) % 4) + a'.val, _⟩ = _
  rw [e1, e2, e3]

/-- The sum of the whole output array is the sum of the squared differences over every batch and pair of positions. -/
theorem sum_out (c : Dev nD) :
    ∑ j : S16x8x128.Idx, outArr m c j = total ((1/2 : ℝ) : EReal) (xK m c) (MK m c) := by
  rw [Cert.ReferenceIdeal.RefSpec.sum_idx3, total_tiles]
  refine Finset.sum_congr rfl fun b _ => ?_
  simp only [out_all]
  rw [Finset.sum_eq_single (0 : Fin 8) (fun r _ hr => Finset.sum_eq_zero fun l _ => if_neg fun h => hr (Fin.ext h.1))
      (fun h => absurd (Finset.mem_univ _) h),
    Finset.sum_eq_single (0 : Fin 128) (fun l _ hl => if_neg fun h => hl (Fin.ext h.2)) (fun h => absurd (Finset.mem_univ _) h),
    if_pos ⟨rfl, rfl⟩, sum_sixteen]
  exact Finset.sum_congr rfl fun ti _ => Finset.sum_congr rfl fun tj _ => tileAtN_eq m c b ti tj

/-- The closing operations at the exact instance: the sum of the array from zero, divided by 2^26. -/
theorem tailVal_apply (o : S16x8x128.Idx → EReal) (i : S_.Idx) :
    tailVal (F := Ideal) o i = Ideal.div (0 + ∑ j : S16x8x128.Idx, o j) (Ideal.ofBits .f32 0x4C800000#32) := by
  have h := Ideal.hostReduceAdd_total reducesTo_S16x8x128_S_d0_1_2 (fun b => b.elim0) o (Ideal.ofBits .f32 0x00000000#32) i
  have h2 : tailVal (F := Ideal) o i
      = Ideal.div (Ideal.hostReduceAdd reducesTo_S16x8x128_S_d0_1_2 o (Ideal.ofBits .f32 0x00000000#32) i) (Ideal.ofBits .f32 0x4C800000#32) := rfl
  rw [h2, h, Ideal.ofBits_zero_f32]

/-- THE KERNEL PROGRAM'S RESULT: the closing operations' value of the output array is the specification's mean at
    threshold one half. -/
theorem tailVal_eq (c : Dev nD) :
    tailVal ((dats m 0 c).arrAt 3 cfg0.N) = fun _ => mean ((1/2 : ℝ) : EReal) (xK m c) (MK m c) := by
  funext i
  refine (tailVal_apply (outArr m c) i).trans ?_
  rw [sum_out]
  rfl

end Cert.KernelIdeal.Hand

end
-- ==== Proof.KResult.lean ====
/-
  The kernel program's run, with its result named by the specification.

  The membership array the region reads is built by the same nineteen whole-array operations, from the same
  cluster sizes, as the one the reference program contracts: the two are one function of the second argument, and
  every entry of it is zero or one. The scores the region reads are the first argument itself. So the kernel
  program's result is the specification's mean of the arguments at threshold one half, which for a zero-one
  membership array is the mean at threshold zero — the reference's.
-/
import proofs.«167607_j446676599061_2_alg».proof.Proof.KValue
import proofs.«167607_j446676599061_2_alg».proof.Proof.KBody

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-- The scores the region finds are the first argument: no opening operation writes it. -/
theorem V_scores (c : Dev nD) : V m c main_arg0 = m ((c.tc : Thread nD τ).loc main_arg0) :=
  V0_of_keep m c main_arg0 (by decide)

/-- The membership array the region finds is the reference's membership term of the second argument. -/
theorem V_memb (c : Dev nD) :
    (V m c main_v17 : S16x16x2048.Idx → EReal)
      = Cert.ReferenceIdeal.ReadP.val_main_v17 (F := Ideal) (m ((c.tc : Thread nD τ).loc main_arg1)) := by
  show StableHlo.after (List.flatten [hostOps0 (F := Ideal)]) (fun b => m (c, b)) (Proc.devRef .tc main_v17) = _
  simp only [hostOps0, List.flatten_cons, List.flatten_nil, List.append_nil]
  after_results
  rfl

/-- Every entry of it is zero or one. -/
theorem MK_zero_or_one (c : Dev nD) (b : Fin 16) (k : Fin 16) (i : Fin 2048) : MK m c b k i = 0 ∨ MK m c b k i = 1 := by
  unfold MK
  rw [V_memb]
  exact Cert.ReferenceIdeal.RefSpec.memb_zero_or_one _ _

/-- THE KERNEL PROGRAM: every weakly fair execution terminates with the result at the specification's mean of the two
    arguments (threshold zero, the membership array the reference's term), and with the arguments as they were. -/
theorem kernel_run :
    θ_run defs (onTc (τ := τ) (main (F := Ideal))) ⟨m, fun _ => 0, ρ⟩ (fun r => ∀ c : Dev nD,
      r.2.mem ((c.tc : Thread nD τ).loc main_v20)
          = (fun _ => mean 0 (fun b p q => (m ((c.tc : Thread nD τ).loc main_arg0) : S16x2048x2048.Idx → EReal) (ix3 b p q))
              (fun b k p => Cert.ReferenceIdeal.ReadP.val_main_v17 (F := Ideal) (m ((c.tc : Thread nD τ).loc main_arg1)) (ix3 b k p)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩)
    (run_main_of m ρ (dats m) (A_eq m) (q0_eq m) (q1_eq m) (q2_eq m) (Phi_eq m) (owed_eq m) (fun c => (body_obligation m c).loose))
  rw [tailVal_eq, mean_half_eq_zero _ _ (MK_zero_or_one m c)]
  unfold xK MK
  rw [V_scores, V_memb]
  rfl

end Cert.KernelIdeal.Hand

end
-- ==== Proof.BDefs.lean ====
/-
  What the kernel region finds when it is entered. Before the region the program builds, from the cluster sizes,
  the membership array (1 where a position lies in a cluster, else 0) by nineteen whole-array operations; the region
  then reads the scores through one window and the membership array through two, and writes its partial sums
  through a fourth. `V` names every buffer's contents at that moment, and `iblk` a window's block of its array at
  a grid point.
-/
import proofs.«167607_j446676599061_2_alg».proof.Proof.Gen.Kernel.Launch
import proofs.«167607_j446676599061_2_alg».proof.Proof.Gen.Kernel.Skeleton
import proofs.«167607_j446676599061_2_alg».proof.Proof.Gen.Kernel.Points
import Idealize.ShloMosaic.Lib.Pipeline.FrameBody
import Idealize.ShloMosaic.Lib.Pipeline.FrameSuffix

noncomputable section

namespace Cert.Kernel.Hand

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- Core `c`'s buffers when the region is entered: the launch contents carried through the nineteen operations
    that precede it. -/
abbrev V0 (c : Dev nD) : Valuation τ sig (Elt F) :=
  StableHlo.after (List.flatten [hostOps0 (F := F)]) (fun b => m (c, b))

/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.BRuns.lean ====
/-
  What the two runs of the kernel body are stated over. The body resets its accumulator exactly when the second
  and third grid coordinates are both zero; over the grid of 16 · 4 · 4 points, numbered t = 16·b + 4·i + j, that
  is when t is a multiple of 16. The four windows' current staging buffers at a point are named here as the
  pipeline passes them to the body, and one staging buffer of the output window serves as the view through which
  the accumulator's contents are stated.
-/
import proofs.«167607_j446676599061_2_alg».proof.Proof.BDefs
import Idealize.ShloMosaic.Lib.Ring
import Idealize.ShloMosaic.Lib.Tactic
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the body's conditional, from the grid coordinates: the second and third are both zero. -/
abbrev cond (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- It holds exactly at the first point of each batch: the multiples of 16. -/
theorem hcond : ∀ t : Fin cfg0.N, cond (grid0.coords t) ↔ t.val % 16 = 0 :=
  (by decide +kernel : ∀ t : Fin grid0.N, cond (grid0.coords t) ↔ t.val % 16 = 0)

/-- One staging buffer of the output window, through which the accumulator's contents are stated. -/
abbrev VO3 : View sig .tc .vmem S1x8x128 .f32 := (Memref.whole cc0_stg3_0 : Memref sig .tc .vmem S1x8x128 .f32).view

/-- Each window's current staging buffer at point `t`, as the pipeline passes it, and that it is a whole buffer. -/
abbrev ms0 (t : Fin cfg0.N) : Memref sig .tc .vmem S1x512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x16x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x128 .f32 := win0_3.stage (cfg0.slots t 3)
abbrev hs3 (t : Fin cfg0.N) : (ms3 t).IsWhole := hstage0_3 ((cfg0.slots t 3).cast nbuf0_3)

end Cert.Kernel.Hand

end
-- ==== Proof.BRunA.lean ====
/-
  The whole kernel body at a point where it resets its accumulator (the second and third grid coordinates zero).
  On whole staging buffers, the three inputs' at given contents and the output's at anything, the body runs to its
  end leaving the inputs as they were and the output's buffer covered by two stores: first the zero block, then
  the zero block plus this point's partial sum. The list of pieces the output ends with is the witness the run
  finds; nothing the body computes is evaluated.
-/
import proofs.«167607_j446676599061_2_alg».proof.Proof.BRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case A: the pieces the output's buffer ends with (last store first), with the proof that the body runs to a
    continuation holding the inputs unchanged and the output's buffer with those pieces written. -/
noncomputable def kernelRunA (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : cond i)
    (x0 : Vec F S1x512x512 .f32) (x1 : Vec F S1x16x512 .f32) (x2 : Vec F S1x16x512 .f32) :
    { L : List (View.Piece (Elt F) S1x8x128 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ (∃ d, owns (c : Thread nD τ) arg6 fullShare d)
            ∗ (iprop(owns (c : Thread nD τ) arg3 fullShare x0 ∗ owns (c : Thread nD τ) arg4 fullShare x1
                ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__mse_kernel i arg3 harg3 arg4 harg4 arg5 harg5 arg6 harg6) K } := by
  refine ⟨?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Hand

end
-- ==== Proof.BRunB.lean ====
/-
  The whole kernel body at a point where it does not reset its accumulator. On whole staging buffers, the three
  inputs' at given contents and the output's at what it held on entry, the body runs to its end leaving the inputs
  as they were and the output's buffer covered by one store: what it held on entry plus this point's partial sum.
  The list of pieces the output ends with is the witness the run finds; nothing the body computes is evaluated.
-/
import proofs.«167607_j446676599061_2_alg».proof.Proof.BRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case B: the pieces the output's buffer ends with, with the proof that the body runs to a continuation holding
    the inputs unchanged and the output's buffer with those pieces written. -/
noncomputable def kernelRunB (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : ¬cond i)
    (x0 : Vec F S1x512x512 .f32) (x1 : Vec F S1x16x512 .f32) (x2 : Vec F S1x16x512 .f32) (xo : Vec F S1x8x128 .f32) :
    { L : List (View.Piece (Elt F) S1x8x128 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare xo
            ∗ (iprop(owns (c : Thread nD τ) arg3 fullShare x0 ∗ owns (c : Thread nD τ) arg4 fullShare x1
                ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__mse_kernel i arg3 harg3 arg4 harg4 arg5 harg5 arg6 harg6) K } := by
  refine ⟨?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2
    obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Hand

end
-- ==== Proof.BData.lean ====
/-
  What the output window's staging buffer holds after the body at each grid point, and the pipeline's proof data.
  In either case the body's stores tile the whole 1×8×128 block, so what the buffer ends with does not depend on
  what it held outside the stores: it is the stores read back over anything. Point by point the buffer holds, at a
  multiple of 16, the resetting case's contents, and at any other point the accumulating case's contents over
  what the point before left (the buffer is written back only after the points ≡ 15 mod 16, each followed by a
  resetting point). The three input windows' buffers hold their blocks of the arrays at every point, the window
  fetched there or not: an input that is not fetched at a point has not moved.
-/
import proofs.«167607_j446676599061_2_alg».proof.Proof.BRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Case A's pieces tile the output's block, so they cover it. -/
theorem coverA (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : cond i)
    (x0 : Vec F S1x512x512 .f32) (x1 : Vec F S1x16x512 .f32) (x2 : Vec F S1x16x512 .f32) (y : S1x8x128.Idx) :
    ∃ pc ∈ (kernelRunA c i arg3 harg3 arg4 harg4 arg5 harg5 arg6 harg6 hc x0 x1 x2).1, y ∈ pc.1.set :=
  View.cover_of_tiledL (kernelRunA c i arg3 harg3 arg4 harg4 arg5 harg5 arg6 harg6 hc x0 x1 x2).1 S1x8x128.size (by sl_kernel_rfl) y

/-- What case A leaves in the output's staging buffer: its pieces read back over anything. -/
def outA (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : cond i)
    (x0 : Vec F S1x512x512 .f32) (x1 : Vec F S1x16x512 .f32) (x2 : Vec F S1x16x512 .f32) : Vec F S1x8x128 .f32 :=
  VO3.read (Elt F) (VO3.writes (Elt F) VO3.junk (kernelRunA c i arg3 harg3 arg4 harg4 arg5 harg5 arg6 harg6 hc x0 x1 x2).1)

/-- Case B's pieces tile the output's block, so they cover it. -/
theorem coverB (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : ¬cond i)
    (x0 : Vec F S1x512x512 .f32) (x1 : Vec F S1x16x512 .f32) (x2 : Vec F S1x16x512 .f32) (xo : Vec F S1x8x128 .f32) (y : S1x8x128.Idx) :
    ∃ pc ∈ (kernelRunB c i arg3 harg3 arg4 harg4 arg5 harg5 arg6 harg6 hc x0 x1 x2 xo).1, y ∈ pc.1.set :=
  View.cover_of_tiledL (kernelRunB c i arg3 harg3 arg4 harg4 arg5 harg5 arg6 harg6 hc x0 x1 x2 xo).1 S1x8x128.size (by sl_kernel_rfl) y

/-- What case B leaves in the output's staging buffer: its pieces read back over anything. -/
def outB (c : Dev nD) (i : grid0.Coords)
    (arg3 : Memref sig .tc .vmem S1x512x512 .f32) (harg3 : arg3.IsWhole)
    (arg4 : Memref sig .tc .vmem S1x16x512 .f32) (harg4 : arg4.IsWhole)
    (arg5 : Memref sig .tc .vmem S1x16x512 .f32) (harg5 : arg5.IsWhole)
    (arg6 : Memref sig .tc .vmem S1x8x128 .f32) (harg6 : arg6.IsWhole) (hc : ¬cond i)
    (x0 : Vec F S1x512x512 .f32) (x1 : Vec F S1x16x512 .f32) (x2 : Vec F S1x16x512 .f32) (xo : Vec F S1x8x128 .f32) : Vec F S1x8x128 .f32 :=
  VO3.read (Elt F) (VO3.writes (Elt F) VO3.junk (kernelRunB c i arg3 harg3 arg4 harg4 arg5 harg5 arg6 harg6 hc x0 x1 x2 xo).1)

/-! ## What the output's buffer holds after each point -/

/-- The accumulation. What the output's staging buffer holds after the body at position `n`: at a multiple of 16
    the resetting case run at the point's buffers and input blocks, otherwise the accumulating case over what this
    leaves at `n - 1`. -/
def outsAt (c : Dev nD) : (n : ℕ) → n < cfg0.N → Vec F S1x8x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond ⟨0, hn⟩).mpr (Nat.zero_mod _)) (iblk m c 0 ⟨0, hn⟩) (iblk m c 1 ⟨0, hn⟩) (iblk m c 2 ⟨0, hn⟩)
  | n + 1, hn =>
    if h0 : (n + 1) % 16 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond ⟨n + 1, hn⟩).mpr h0) (iblk m c 0 ⟨n + 1, hn⟩) (iblk m c 1 ⟨n + 1, hn⟩) (iblk m c 2 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond ⟨n + 1, hn⟩).mp h)) (iblk m c 0 ⟨n + 1, hn⟩) (iblk m c 1 ⟨n + 1, hn⟩) (iblk m c 2 ⟨n + 1, hn⟩) (outsAt c n (Nat.lt_of_succ_lt hn))

/-- `outsAt` at a resetting point: case A's contents. -/
theorem outsAt_A (c : Dev nD) (t : Fin cfg0.N) (h0 : t.val % 16 = 0) :
    outsAt m c t.val t.isLt = outA c (grid0.coords t) (ms0 t) (hs0 t) (ms1 t) (hs1 t) (ms2 t) (hs2 t) (ms3 t) (hs3 t) ((hcond t).mpr h0) (iblk m c 0 t) (iblk m c 1 t) (iblk m c 2 t) := by
  obtain ⟨n, hn⟩ := t
  cases n with
  | zero => exact rfl
  | succ n => exact (dif_pos h0).trans rfl

/-- `outsAt` at any other point: case B's contents, over what the point before left. -/
theorem outsAt_B (c : Dev nD) (t : Fin cfg0.N) (h0 : ¬t.val % 16 = 0) :
    outsAt m c t.val t.isLt = outB c (grid0.coords t) (ms0 t) (hs0 t) (ms1 t) (hs1 t) (ms2 t) (hs2 t) (ms3 t) (hs3 t) (fun h => h0 ((hcond t).mp h)) (iblk m c 0 t) (iblk m c 1 t) (iblk m c 2 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block and the output's at `outsAt`; the library's plain invariant; nothing
    owed; the scores' and the result's arrays held whole, the membership array half by each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q w := match w with
    | ⟨0, _⟩ => fullShare
    | ⟨1, _⟩ => fullShare.left
    | ⟨2, _⟩ => fullShare.right
    | ⟨3, _⟩ => fullShare
  owed _ := 0

/-- The proof data's fields, projected. -/
theorem A_eq (c : Dev nD) (w : Fin cfg0.W) : (dats m 0 c).A w = V m c (Pipeline.arrRef spec0 w) := by
  dsimp only [dats]
theorem q0_eq (c : Dev nD) : (dats m 0 c).q 0 = fullShare := by dsimp only [dats]
theorem q1_eq (c : Dev nD) : (dats m 0 c).q 1 = fullShare.left := by dsimp only [dats]
theorem q2_eq (c : Dev nD) : (dats m 0 c).q 2 = fullShare.right := by dsimp only [dats]
theorem q3_eq (c : Dev nD) : (dats m 0 c).q 3 = fullShare := by dsimp only [dats]
theorem Phi_eq (c : Dev nD) (t : Fin (cfg0.N + 1)) : (dats m 0 c).Φ t = Pipeline.ΦA spec0 c := by dsimp only [dats]
theorem owed_eq (c : Dev nD) (t : Fin (cfg0.N + 1)) : (dats m 0 c).owed t = 0 := by dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outsAt m c t.val t.isLt := by dsimp only [dats]

/-- Each input's current staging buffer holds its block at every point, fetched there or not: where it is not
    fetched its block index has not moved since the point before, whose block the body left in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- At a point that is no multiple of 16 the output's current staging buffer holds what the body left at the point
    before: the point is not the first, and the buffer was not written back between (write-backs follow only the
    points ≡ 15 mod 16). -/
theorem before3_B (c : Dev nD) (t : Fin cfg0.N) (h0 : ¬t.val % 16 = 0) (d) :
    (dats m 0 c).before 3 t d = outsAt m c (t.val - 1) (Nat.lt_of_le_of_lt (Nat.sub_le _ _) t.isLt) := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

end Cert.Kernel.Hand

end
-- ==== Proof.BBody.lean ====
/-
  The body obligation of the pipeline: at every grid point, from the invariant and the four windows' current
  staging buffers at what they then hold, the kernel body runs to the invariant and the buffers at what the proof
  data says it leaves. The inputs' buffers hold their blocks; a point is a multiple of 16 or not, which decides
  the body's conditional; in the second case the output's buffer holds what the point before left. In either case
  the run of the whole body applies, and since its stores cover the output's block, what the buffer ends with is
  those stores read back.
-/
import proofs.«167607_j446676599061_2_alg».proof.Proof.BData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What the body is called with at point `t`: the invariant, what the core owes, and each window's current
    staging buffer at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it returns: the same at the next point, each buffer at what the body leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  have hN : t.val < 256 := lt_of_lt_of_eq t.isLt (show cfg0.N = 256 from N_0)
  by_cases h0 : t.val % 16 = 0
  · rw [outsAt_A m c t h0]
    unfold outA
    iintro ⟨HΦ, Ho, ⟨%d0, H0⟩, ⟨%d1, H1⟩, ⟨%d2, H2⟩, ⟨%d3, H3⟩⟩
    iapply ((kernelRunA c (grid0.coords t) _ _ _ _ _ _ _ _ ((hcond t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _)
  · rw [outsAt_B m c t h0]
    simp only [before3_B m c t h0]
    unfold outB
    iintro ⟨HΦ, Ho, ⟨%d0, H0⟩, ⟨%d1, H1⟩, ⟨%d2, H2⟩, ⟨%d3, H3⟩⟩
    iapply ((kernelRunB c (grid0.coords t) _ _ _ _ _ _ _ _ (fun h => h0 ((hcond t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _)

/-- The library's body obligation, at every point. -/
theorem body_obligation (c : Dev nD) : BodyObligation (dats (F := F) m 0 c) (defs₀ (F := F)) Variants.none () Set.univ := fun t => by
  rw [Gen.bigSep_W0, Gen.bigSep_W0]
  exact sound_body m c t

end Cert.Kernel.Hand

end
-- ==== Proof.BShare.lean ====
/-
  How the three arrays behind the region's four windows are divided among the windows.

  The scores and the output array are each read or written through one window, which therefore holds the whole
  array. The membership array is read through two windows, one taking the rows of the point's row tile and the
  other those of its column tile; each holds the array at half of its share, and the two halves together are the
  whole. Both directions are needed: entering the region splits the array, leaving it puts it back.
-/
import proofs.«167607_j446676599061_2_alg».proof.Proof.BDefs
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

/-- The buffers behind the windows' arrays, each whole at the contents `Vv`, are the pipeline's arrays at the
    contents `Fw` when each window's contents are its buffer's: the scores and the output whole, the membership
    array as its two halves. -/
theorem arrays_eq_arrBufs {c : Dev nD} (dat : Dat τ (Elt F) Unit ℕ (UR sig nD τ) ℕ cfg0 c)
    (hq0 : dat.q 0 = fullShare) (hq1 : dat.q 1 = fullShare.left) (hq2 : dat.q 2 = fullShare.right)
    (Vv : (b : Ref sig .tc) → Buf (Elt F) ((c.tc : Thread nD τ).loc b))
    (Fw : (w : Fin cfg0.W) → Buf (Elt F) ((cfg0.win w).arr.view.loc (c.tc : Thread nD τ)))
    (hF : ∀ w, Fw w = Vv (Pipeline.arrRef spec0 w)) :
    (dat.arrays Fw : sProp 𝕄) = Pipeline.arrBufs spec0 c Vv := by
  have s0 : dat.share 0 = fullShare := by unfold Dat.share; rw [if_neg (by decide)]; exact hq0
  have s1 : dat.share 1 = fullShare.left := by unfold Dat.share; rw [if_neg (by decide)]; exact hq1
  have s2 : dat.share 2 = fullShare.right := by unfold Dat.share; rw [if_neg (by decide)]; exact hq2
  have s3 : dat.share 3 = fullShare := by unfold Dat.share; rw [if_pos (by decide)]
  unfold Dat.arrays Pipeline.arrBufs
  rw [bigSep_W0,
    show bigSep (Finset.univ.image (Pipeline.arrRef spec0)) (fun b => (((c.tc : Thread nD τ).loc b) ↦{fullShare} Vv b : sProp 𝕄))
        = iprop((((c.tc : Thread nD τ).loc main_arg0) ↦{fullShare} Vv main_arg0) ∗ (((c.tc : Thread nD τ).loc main_v17) ↦{fullShare} Vv main_v17)
            ∗ (((c.tc : Thread nD τ).loc main_v18) ↦{fullShare} Vv main_v18))
      from bigSep_eq_bigSepL_of_eq [main_arg0, main_v17, main_v18] (by decide) (by decide) _]
  rw [s0, s1, s2, s3, (arr_whole0 0).set_eq_univ, (arr_whole0 1).set_eq_univ, (arr_whole0 3).set_eq_univ,
    hF 0, hF 1, hF 2, hF 3]
  refine equiv_iff.mp ⟨?_, ?_⟩
  · show (_ : sProp 𝕄) ⊢ _
    iintro ⟨H0, Hl, Hr, H18⟩
    isplitl [H0]; · iexact H0
    isplitr [H18]
    · iapply (pointsTo_share (PosShare.mem_left_op_right fullShare)).2
      isplitl [Hl]; · iexact Hl
      iexact Hr
    · iexact H18
  · show (_ : sProp 𝕄) ⊢ _
    iintro ⟨H0, H17, H18⟩
    ihave H := (pointsTo_share (PosShare.mem_left_op_right fullShare)).1 $$ H17
    icases H with ⟨Hl, Hr⟩
    isplitl [H0]; · iexact H0
    isplitl [Hl]; · iexact Hl
    isplitl [Hr]; · iexact Hr
    iexact H18

end Cert.Kernel.Hand

end
-- ==== Proof.BLaunch.lean ====
/-
  The run of the whole program around its one kernel region, from a body obligation.

  The program is: nineteen whole-array operations that build the membership array; the kernel region, a grid of 256
  points; four whole-array operations that sum the region's output and divide by the number of entries. The region
  reads the membership array through TWO windows (rows of the point's row tile and rows of its column tile), so that
  array's ownership is divided between them, half each, while the scores and the output belong to one window each.
  Given proof data whose arrays are the region-entry contents and whose body obligation holds, every weakly fair
  execution terminates with the result at the closing operations' value of what the region wrote, and with the two
  arguments as they were.
-/
import proofs.«167607_j446676599061_2_alg».proof.Proof.BDefs
import proofs.«167607_j446676599061_2_alg».proof.Proof.BShare
import Idealize.ShloMosaic.Lib.Pipeline.Frame
import Idealize.ShloMosaic.Lib.Pipeline.FrameSuffix
import Idealize.ShloMosaic.Lib.StableHlo.Run

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The closing operations' value of the region's output array: its sum from zero, divided by 2^26. -/
def tailVal (o : (⟨S16x8x128, .f32⟩ : BufTy).Contents (Elt F)) : (⟨S_, .f32⟩ : BufTy).Contents (Elt F) :=
  Host.divf (Host.reduceAdd o (constant S_ .f32 0x00000000#32) reducesTo_S16x8x128_S_d0_1_2 h_S_) (constant S_ .f32 0x4C800000#32)

/-- @main is the opening operations, the region, the closing operations. -/
theorem hmain : Pipeline.HMainK (Ix := Unit) (Name := ℕ) (U := UR sig nD τ) (Lvl := ℕ) cfgs 0 defs₀ Variants.none m (main (F := F))
    (fun c b => V0 m c b) (fun _ => Pipeline.chain ([hostOps1 (F := F)].map StableHlo.seq)) :=
  Pipeline.hmain_around cfgs 0 defs₀ Variants.none m main [hostOps0] [hostOps1] hostOps0_sub
    (show List.Forall (fun op : HloOp τ sig (Elt F) => op.fresh = ∅) hostOps0 from
      ⟨rfl, rfl, rfl, rfl, rfl, rfl, rfl, rfl, rfl, rfl, rfl, rfl, rfl, rfl, rfl, rfl, rfl, rfl, rfl⟩)
    (fun c => (main_chain c).trans rfl)

/-- Core `c`'s buffers when the region is left: as it was entered, but the output array at `o`. -/
def Vmid (c : Dev nD) (o : (⟨S16x8x128, .f32⟩ : BufTy).Contents (Elt F)) : Valuation τ sig (Elt F) :=
  open Classical in Function.update (V0 m c) (Proc.devRef .tc main_v18) o

/-- And after the four closing operations. -/
def Vend (c : Dev nD) (o : (⟨S16x8x128, .f32⟩ : BufTy).Contents (Elt F)) : Valuation τ sig (Elt F) :=
  StableHlo.after (List.flatten [hostOps1 (F := F)]) (Vmid m c o)

theorem Vmid_out (c : Dev nD) (o) : Vmid m c o (Proc.devRef .tc main_v18) = o := by
  unfold Vmid; exact Function.update_self _ _ _

theorem Vmid_of_ne (c : Dev nD) (o) (b : Ref sig .tc) (hb : b ≠ main_v18) : Vmid m c o (Proc.devRef .tc b) = V0 m c (Proc.devRef .tc b) := by
  unfold Vmid; exact Function.update_of_ne (fun e => hb (Proc.devRef_injective _ e)) _ _

/-- The closing operations write the result as `tailVal` of the output array, -/
theorem Vend_result (c : Dev nD) (o) : Vend m c o (Proc.devRef .tc main_v20) = tailVal o := by
  unfold Vend
  simp only [hostOps1, List.flatten_cons, List.flatten_nil, List.append_nil]
  after_results
  rw [Vmid_out]
  rfl

/-- they leave the arguments and the windows' arrays alone: each of the four writes a buffer of its own. -/
theorem hostOps1_writes : (hostOps1 : List (HloOp τ sig (Elt F))).Forall fun op =>
    op.writes ⊆ (([main_cst, main_v19, main_cst_0, main_v20] : List (Ref sig .tc)).map (Proc.devRef (τ := τ) .tc)).toFinset := by
  simp only [List.Forall]
  exact (by simp only [StableHlo.nullary_writes, StableHlo.binary_writes, Finset.singleton_subset_iff, List.mem_toFinset]; exact ⟨List.mem_map_of_mem (by decide), List.mem_map_of_mem (by decide), List.mem_map_of_mem (by decide), List.mem_map_of_mem (by decide)⟩)

theorem Vend_of_keep (c : Dev nD) (o) (b : Ref sig .tc)
    (hb : b ∉ ([main_cst, main_v19, main_cst_0, main_v20] : List (Ref sig .tc))) :
    Vend m c o (Proc.devRef .tc b) = Vmid m c o (Proc.devRef .tc b) := by
  unfold Vend
  rw [show List.flatten [hostOps1 (F := F)] = hostOps1 from by simp only [List.flatten_cons, List.flatten_nil, List.append_nil]]
  exact StableHlo.after_of_writes_sub hostOps1 _ hostOps1_writes hb

/-- The opening operations leave the two arguments alone: each of the nineteen writes a buffer of its own. -/
theorem hostOps0_writes : (hostOps0 : List (HloOp τ sig (Elt F))).Forall fun op =>
    op.writes ⊆ (([main_v0, main_c, main_v1, main_v2, main_v3, main_v4, main_v5, main_v6, main_v7, main_v8, main_v9, main_v10, main_v11, main_v12, main_v13, main_v14, main_v15, main_v16, main_v17] : List (Ref sig .tc)).map (Proc.devRef (τ := τ) .tc)).toFinset := by
  simp only [List.Forall]
  exact (by simp only [StableHlo.nullary_writes, StableHlo.unary_writes, StableHlo.binary_writes, Finset.singleton_subset_iff, List.mem_toFinset]; refine ⟨?_, ?_, ?_, ?_, ?_, ?_, ?_, ?_, ?_, ?_, ?_, ?_, ?_, ?_, ?_, ?_, ?_, ?_, ?_⟩ <;> exact List.mem_map_of_mem (by decide))

theorem V0_of_keep (c : Dev nD) (b : Ref sig .tc)
    (hb : b ∉ ([main_v0, main_c, main_v1, main_v2, main_v3, main_v4, main_v5, main_v6, main_v7, main_v8, main_v9, main_v10, main_v11, main_v12, main_v13, main_v14, main_v15, main_v16, main_v17] : List (Ref sig .tc))) :
    V0 m c (Proc.devRef .tc b) = m (c, Proc.devRef .tc b) := by
  show StableHlo.after (List.flatten [hostOps0 (F := F)]) (fun b => m (c, b)) (Proc.devRef .tc b) = _
  rw [show List.flatten [hostOps0 (F := F)] = hostOps0 from by simp only [List.flatten_cons, List.flatten_nil, List.append_nil]]
  exact StableHlo.after_of_writes_sub hostOps0 _ hostOps0_writes hb

theorem hostOps1_fresh : (hostOps1 : List (HloOp τ sig (Elt F))).Forall fun op => op.fresh = ∅ := ⟨rfl, rfl, rfl, rfl⟩

/-- Outside the output array the buffers are, when the region is left, what they were when it was entered. -/
theorem rest_mid (c : Dev nD) (o) :
    (Pipeline.unscopedRest (Ix := Unit) (Name := ℕ) (U := UR sig nD τ) (Lvl := ℕ) spec0 c (fun b => V0 m c (Proc.devRef .tc b)) : sProp 𝕄)
      = Pipeline.unscopedRest spec0 c (fun b => Vmid m c o (Proc.devRef .tc b)) := by
  unfold Pipeline.unscopedRest
  exact bigSep_congr fun b hb => by
    dsimp only
    rw [Vmid_of_ne m c o b (fun e => (Finset.mem_sdiff.mp hb).2 (e ▸ Finset.mem_image.mpr ⟨3, Finset.mem_univ _, rfl⟩))]

/-- All of a core's unscoped buffers at a valuation are the buffers behind the windows' arrays and the rest. -/
theorem bufs_split (c : Dev nD) (Vv : (b : Ref sig .tc) → Buf (Elt F) ((c.tc : Thread nD τ).loc b)) :
    (unscopedBufs (Ix := Unit) (Name := ℕ) (U := UR sig nD τ) (Lvl := ℕ) c Vv : sProp 𝕄)
      = iprop(Pipeline.arrBufs spec0 c Vv ∗ Pipeline.unscopedRest spec0 c Vv) :=
  Pipeline.unscopedBufs_split₀ cfgs 0 winFacts₀0.arr_unscoped c Vv

/-- The result buffer and the second argument bypass the region: neither is scoped, neither is a window's array. -/
theorem mem_rest_v20 : main_v20 ∈ Pipeline.restRefsP sig Pipeline.Prefetch.none spec0 :=
  Finset.mem_sdiff.mpr ⟨Pipeline.mem_restRefs_of main_v20 rfl (by decide), fun h => by
    obtain ⟨k, -, -⟩ := Finset.mem_image.mp h; exact k.elim0⟩
theorem mem_rest_arg1 : main_arg1 ∈ Pipeline.restRefsP sig Pipeline.Prefetch.none spec0 :=
  Finset.mem_sdiff.mpr ⟨Pipeline.mem_restRefs_of main_arg1 rfl (by decide), fun h => by
    obtain ⟨k, -, -⟩ := Finset.mem_image.mp h; exact k.elim0⟩

-- a rule stated for any thread, applied at the TensorCore thread, unifies only when unification may unfold plain
-- definitions in a metavariable's type
set_option backward.isDefEq.respectTransparency.types false in
set_option maxHeartbeats 1000000 in
/-- THE CLOSING OPERATIONS. Holding every unscoped buffer at the contents the region left, the four operations run
    and leave every unscoped buffer at their value of those contents. -/
theorem tail_run (c : Dev nD) (o : (⟨S16x8x128, .f32⟩ : BufTy).Contents (Elt F)) (Q' : PUnit → sProp 𝕄) :
    iprop(((StableHlo.held (c.tc : Thread nD τ) (Pipeline.ucRefs τ sig) (Vend m c o) : sProp 𝕄) -∗ Q' ⟨⟩)
        ∗ boundary (c.tc : Thread nD τ) ∗ (StableHlo.held (c.tc : Thread nD τ) (Pipeline.ucRefs τ sig) (Vmid m c o) : sProp 𝕄))
      ⊢ wp frame (wpE (Pipeline.defs (fun p => (cfgs p).toPCfg) (defs₀ (F := F))) (Variants.lift Variants.none) (c.tc : Thread nD τ) none) Set.univ
          (Pipeline.chain ([hostOps1 (F := F)].map StableHlo.seq)) Q' := by
  unfold Vend
  rw [← List.append_nil (List.map StableHlo.seq [hostOps1 (F := F)])]
  iintro ⟨Hk, Hb⟩
  iapply (Pipeline.wp_seqs_then (fun p => (cfgs p).toPCfg) defs₀ Variants.none c (Pipeline.ucRefs τ sig) [] [hostOps1 (F := F)]
    (fun ops ho op h => Pipeline.sub_ucRefs op (List.forall_iff_forall_mem.mp (List.mem_singleton.mp ho ▸ hostOps1_sub) op h))
    (fun ops ho op h => List.forall_iff_forall_mem.mp (List.mem_singleton.mp ho ▸ hostOps1_fresh) op h)
    (Vmid m c o)) $$ Hb
  iintro Hb
  rw [Pipeline.chain_nil, wp_pure]
  imodintro
  iapply Hk
  icases Hb with ⟨-, H⟩
  iexact H

-- unification of the launch theorem's implicit arguments unfolds plain definitions in a metavariable's type
set_option backward.isDefEq.respectTransparency.types false in
set_option maxHeartbeats 2000000 in
/-- THE RUN. For proof data whose arrays are the region-entry contents, with the membership array's two windows at
    half its share each, the class's invariant, nothing owed and the body obligation: every weakly fair execution
    of the program terminates, the result buffer holding the closing operations' value of the output array the
    pipeline computes, and both arguments as they were. -/
theorem run_main_of
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare) (hq1 : ∀ c, (dats 0 c).q 1 = fullShare.left) (hq2 : ∀ c, (dats 0 c).q 2 = fullShare.right)
    (hΦ : ∀ c t, (dats 0 c).Φ t = Pipeline.ΦA spec0 c)
    (howed : ∀ c t, (dats 0 c).owed t = 0)
    (hbody : ∀ c, BodyObligationLoose (dats 0 c) (defs₀ (F := F)) Variants.none () Set.univ) :
    θ_run defs (onTc (τ := τ) (main (F := F))) ⟨m, fun _ => 0, ρ⟩ (fun r => ∀ c : Dev nD,
      r.2.mem ((c.tc : Thread nD τ).loc main_v20) = tailVal ((dats 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun p => (cfgs p).toPCfg) (fun p => (cfgs p).toPCfg_adm) dats () cellOf_inj (0 : Fin 1) winFacts₀0
    (Pipeline.OwnSemFacts.none _) (Pipeline.PreFacts.none _) emb₁ defs₀ Variants.none m ρ main
    (fun _ => Pipeline.chain ([hostOps1 (F := F)].map StableHlo.seq)) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := fun c b => V0 m c (Proc.devRef .tc b)) (hmain := hmain m)
    (hsplit := fun c => Entails.of_eq
      (arrays_eq_arrBufs (dats 0 c) (hq0 c) (hq1 c) (hq2 c) (fun b => V0 m c (Proc.devRef .tc b)) _ (fun w => hA c w)).symm)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (fun b => V0 m c (Proc.devRef .tc b)))
    (Z' := fun c => Pipeline.unscopedRestP (Ix := Unit) (Name := ℕ) (U := UR sig nD τ) (Lvl := ℕ) Pipeline.Prefetch.none spec0 c (fun b => Vend m c ((dats 0 c).arrAt 3 cfg0.N) (Proc.devRef .tc b)))
    (hX := fun c => by
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr]; · iexact Hr
      iexact Hp)
    (hout := fun c => by
      rw [hΦ, Pipeline.ownSems0_none]; unfold Pipeline.ΦA
      iintro ⟨Hr, Hp⟩
      isplitl [Hp]; · iexact Hp
      isplitr; · iempintro
      iexact Hr)
    (htail := fun c Q' => by
      have hmid : ∀ w, (dats 0 c).arrAt w cfg0.N = Vmid m c ((dats 0 c).arrAt 3 cfg0.N) (Proc.devRef .tc (Pipeline.arrRef spec0 w)) := fun w => by
        match w with
        | ⟨0, _⟩ => exact ((dats 0 c).arrAt_in 0 rfl _).trans ((hA c 0).trans (Vmid_of_ne m c _ main_arg0 (by decide)).symm)
        | ⟨1, _⟩ => exact ((dats 0 c).arrAt_in 1 rfl _).trans ((hA c 1).trans (Vmid_of_ne m c _ main_v17 (by decide)).symm)
        | ⟨2, _⟩ => exact ((dats 0 c).arrAt_in 2 rfl _).trans ((hA c 2).trans (Vmid_of_ne m c _ main_v17 (by decide)).symm)
        | ⟨3, _⟩ => exact (Vmid_out m c _).symm
      have hend : ∀ w, (dats 0 c).arrAt w cfg0.N = Vend m c ((dats 0 c).arrAt 3 cfg0.N) (Proc.devRef .tc (Pipeline.arrRef spec0 w)) := fun w => by
        match w with
        | ⟨0, _⟩ => exact (hmid 0).trans (Vend_of_keep m c _ main_arg0 (by decide)).symm
        | ⟨1, _⟩ => exact (hmid 1).trans (Vend_of_keep m c _ main_v17 (by decide)).symm
        | ⟨2, _⟩ => exact (hmid 2).trans (Vend_of_keep m c _ main_v17 (by decide)).symm
        | ⟨3, _⟩ => exact (hmid 3).trans (Vend_of_keep m c _ main_v18 (by decide)).symm
      have e1 := arrays_eq_arrBufs (dats 0 c) (hq0 c) (hq1 c) (hq2 c) (fun b => Vmid m c ((dats 0 c).arrAt 3 cfg0.N) (Proc.devRef .tc b))
        (fun w => (dats 0 c).arrAt w cfg0.N) hmid
      have e2 := arrays_eq_arrBufs (dats 0 c) (hq0 c) (hq1 c) (hq2 c) (fun b => Vend m c ((dats 0 c).arrAt 3 cfg0.N) (Proc.devRef .tc b))
        (fun w => (dats 0 c).arrAt w cfg0.N) hend
      show iprop((iprop((dats 0 c).arrays (fun w => (dats 0 c).arrAt w cfg0.N)
              ∗ Pipeline.unscopedRestP Pipeline.Prefetch.none spec0 c (fun b => Vend m c ((dats 0 c).arrAt 3 cfg0.N) (Proc.devRef .tc b))) -∗ Q' ⟨⟩)
          ∗ boundary (c.tc : Thread nD τ) ∗ (dats 0 c).arrays (fun w => (dats 0 c).arrAt w cfg0.N)
          ∗ Pipeline.unscopedRestP Pipeline.Prefetch.none spec0 c (fun b => V0 m c (Proc.devRef .tc b))) ⊢ _
      rw [Pipeline.unscopedRestP_none, Pipeline.unscopedRestP_none, rest_mid m c ((dats 0 c).arrAt 3 cfg0.N)]
      nth_rewrite 2 [e1]
      rw [e2, ← bufs_split, ← bufs_split, Pipeline.unscopedBufs_held, Pipeline.unscopedBufs_held]
      exact tail_run m c ((dats 0 c).arrAt 3 cfg0.N) Q')
    (QY := fun c s => ∀ b ∈ Pipeline.restRefsP sig Pipeline.Prefetch.none spec0, s.mem ((c.tc : Thread nD τ).loc b) = Vend m c ((dats 0 c).arrAt 3 cfg0.N) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => Vend m c ((dats 0 c).arrAt 3 cfg0.N) (Proc.devRef .tc b)) s')
      isplitl [HU] <;> iassumption)
    (hQ := fun s h c => by
      refine ⟨((h c).2.2 main_v20 mem_rest_v20).trans (Vend_result m c _), ?_, ?_⟩
      · exact ((h c).1 0).trans (((dats 0 c).arrAt_in 0 rfl _).trans ((hA c 0).trans (V0_of_keep m c main_arg0 (by decide))))
      · exact ((h c).2.2 main_arg1 mem_rest_arg1).trans ((Vend_of_keep m c _ main_arg1 (by decide)).trans
          ((Vmid_of_ne m c _ main_arg1 (by decide)).trans (V0_of_keep m c main_arg1 (by decide)))))

end Cert.Kernel.Hand

end
-- ==== Proof.lean ====
/-
  The mean squared difference between a batch of score matrices and the zero-one matrix "some cluster holds both
  positions", computed two ways, and the proof that the two ways agree on the extended reals.

  The reference forms, per batch, the 2048 × 2048 matrix of counts of common clusters by one contraction of the
  membership array with itself, compares it with zero, subtracts the indicator from the scores, squares, sums
  everything and divides by the number of entries. The kernel walks a 16 × 4 × 4 grid: each point takes a
  512 × 512 tile of the scores and the two 16 × 512 strips of the membership array that meet in it, forms the tile's
  counts by a small matrix product, compares them with one half, and adds the tile's sum of squared differences to
  entry (0, 0) of its batch's output block; the blocks are then summed and divided by the same number of entries.

  They agree because (1) every entry of the membership array is zero or one, so a count is a natural number and
  exceeds one half exactly when it exceeds zero; (2) the tiles partition the pairs of positions, and a sum over
  the extended reals may be regrouped freely (addition there is commutative and associative; nothing here needs
  the inputs to be finite); (3) both divide by the same power of two.

  The modules: Spec (the quantity), SpecLaws (1 and 2), RefRunP / RefReadP / RefIsSpec (the reference is the
  quantity), KDefs … KBody (the kernel region's body, point by point, and the proof data of its pipeline), KShare
  and KLaunch (the whole program's run around the region, the membership array divided between its two windows),
  KPayload / KPieces / KBlocks / KValue / KResult (the kernel program's result is the quantity), and the same
  frame modules for the word-level program (BDefs … BLaunch).
-/
import proofs.«167607_j446676599061_2_alg».proof.Defs
import proofs.«167607_j446676599061_2_alg».proof.Proof.Gen.Kernel
import proofs.«167607_j446676599061_2_alg».proof.Proof.Gen.KernelIdeal
import proofs.«167607_j446676599061_2_alg».proof.Proof.Gen.ReferenceIdeal
import proofs.«167607_j446676599061_2_alg».proof.Proof.Gen.Pre_finite_inputs
import proofs.«167607_j446676599061_2_alg».proof.Proof.KResult
import proofs.«167607_j446676599061_2_alg».proof.Proof.BBody
import proofs.«167607_j446676599061_2_alg».proof.Proof.BLaunch
import proofs.«167607_j446676599061_2_alg».proof.Proof.RefIsSpec

noncomputable section

namespace Cert.Proof

open Idealize.ShloMosaic Idealize.SL.Sem

/-- The word-level kernel program runs to the end and leaves its arguments as they were. -/
theorem frame_kernel : @Cert.frame_Kernel Cert.Kernel.Gen.facts Cert.Pre_finite_inputs.Gen.facts := fun m ρ _ =>
  (θ_run Cert.Kernel.defs _ _).mono (fun _ h c => (h c).2)
    (Cert.Kernel.Hand.run_main_of m ρ (Cert.Kernel.Hand.dats m) (Cert.Kernel.Hand.A_eq m) (Cert.Kernel.Hand.q0_eq m)
      (Cert.Kernel.Hand.q1_eq m) (Cert.Kernel.Hand.q2_eq m) (Cert.Kernel.Hand.Phi_eq m) (Cert.Kernel.Hand.owed_eq m)
      (fun c => (Cert.Kernel.Hand.body_obligation m c).loose))

/-- So does the kernel program read over the extended reals. -/
theorem frame_kernelIdeal : @Cert.frame_KernelIdeal Cert.KernelIdeal.Gen.facts Cert.Pre_finite_inputs.Gen.facts := fun m ρ _ =>
  (θ_run Cert.KernelIdeal.defs _ _).mono (fun _ h c => (h c).2) (Cert.KernelIdeal.Hand.kernel_run m ρ)

/-- So does the reference. -/
theorem frame_referenceIdeal : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.RefSpec.frame_and_value m ρ)

/-- Over the extended reals, from memories that agree on the arguments, both programs end with the same result:
    the mean squared difference of the specification. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.RefSpec.frame_and_value m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
